-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v39_0)) (v1 : (c : Dev Cert.KernelIdeal.nD) → Buf (Elt Ideal) ((c.tc : Thread Cert.KernelIdeal.nD Cert.KernelIdeal.τ).loc Cert.KernelIdeal.main_v39_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_0) = v0 c
          ∧ r.2.mem ((c.tc : Thread Cert.KernelIdeal.nD Cert.KernelIdeal.τ).loc Cert.KernelIdeal.main_v39_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000x86 : Shape := ⟨2, ![800000, 86]⟩
abbrev S800000 : Shape := ⟨1, ![800000]⟩
abbrev S2000x86 : Shape := ⟨2, ![2000, 86]⟩
abbrev S100000 : Shape := ⟨1, ![100000]⟩
abbrev S86x128 : Shape := ⟨2, ![86, 128]⟩
abbrev S128 : Shape := ⟨1, ![128]⟩
abbrev S128x128 : Shape := ⟨2, ![128, 128]⟩
abbrev S397x128 : Shape := ⟨2, ![397, 128]⟩
abbrev S128x13 : Shape := ⟨2, ![128, 13]⟩
abbrev S13 : Shape := ⟨1, ![13]⟩
abbrev S_ : Shape := ⟨0, ![]⟩

class Facts : Prop where
  bcast_S_S800000x86 : S_.BroadcastsInDim S800000x86 (![] : Fin 0 → Fin S800000x86.rank)
  reducesTo_S800000x86_S_d0_1 : S800000x86.ReducesTo [0, 1] S_
  h_S_ : 0 < S_.numel
  bcast_S_S2000x86 : S_.BroadcastsInDim S2000x86 (![] : Fin 0 → Fin S2000x86.rank)
  reducesTo_S2000x86_S_d0_1 : S2000x86.ReducesTo [0, 1] S_
  bcast_S_S86x128 : S_.BroadcastsInDim S86x128 (![] : Fin 0 → Fin S86x128.rank)
  reducesTo_S86x128_S_d0_1 : S86x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S397x128 : S_.BroadcastsInDim S397x128 (![] : Fin 0 → Fin S397x128.rank)
  reducesTo_S397x128_S_d0_1 : S397x128.ReducesTo [0, 1] S_
  bcast_S_S128x13 : S_.BroadcastsInDim S128x13 (![] : Fin 0 → Fin S128x13.rank)
  reducesTo_S128x13_S_d0_1 : S128x13.ReducesTo [0, 1] S_
  bcast_S_S13 : S_.BroadcastsInDim S13 (![] : Fin 0 → Fin S13.rank)
  reducesTo_S13_S_d0 : S13.ReducesTo [0] S_

variable [Facts]

def fn_part5 {F : FTy → Type} [FloatOps F] (main_v83 : IVec S_ 1) (main_v84 : FVec F S13 .f32) (main_cst_32 : FVec F S_ .f32) : IVec S_ 1 :=
  let main_v85 : FVec F S13 .f32 := broadcastInDim S13 ![] bcast_S_S13 main_cst_32
  let main_v86 : IVec S13 1 := cmpf .olt main_v84 main_v85
  let main_c_33 : IVec S_ 1 := constantI S_ 1 1#1
  let main_v87 : IVec S_ 1 := (fun x v => Host.reduce IntOp.andi x v reducesTo_S13_S_d0 h_S_) main_v86 main_c_33
  let main_v88 : IVec S_ 1 := andi main_v83 main_v87
  main_v88

def fn_part4 {F : FTy → Type} [FloatOps F] (main_arg17 : FVec F S128x13 .f32) (main_arg18 : FVec F S13 .f32) (main_arg19 : FVec F S128x13 .f32) (main_arg20 : FVec F S13 .f32) (main_v63 : IVec S_ 1) (main_v67 : IVec S_ 1) : IVec S_ 1 :=
  let main_v68 : IVec S_ 1 := andi main_v63 main_v67
  let main_v69 : FVec F S128x13 .f32 := Host.absf main_arg17
  let main_cst_26 : FVec F S_ .f32 := constant S_ .f32 0x7F800000#32
  let main_v70 : FVec F S128x13 .f32 := broadcastInDim S128x13 ![] bcast_S_S128x13 main_cst_26
  let main_v71 : IVec S128x13 1 := cmpf .olt main_v69 main_v70
  let main_c_27 : IVec S_ 1 := constantI S_ 1 1#1
  let main_v72 : IVec S_ 1 := (fun x v => Host.reduce IntOp.andi x v reducesTo_S128x13_S_d0_1 h_S_) main_v71 main_c_27
  let main_v73 : IVec S_ 1 := andi main_v68 main_v72
  let main_v74 : FVec F S13 .f32 := Host.absf main_arg18
  let main_cst_28 : FVec F S_ .f32 := constant S_ .f32 0x7F800000#32
  let main_v75 : FVec F S13 .f32 := broadcastInDim S13 ![] bcast_S_S13 main_cst_28
  let main_v76 : IVec S13 1 := cmpf .olt main_v74 main_v75
  let main_c_29 : IVec S_ 1 := constantI S_ 1 1#1
  let main_v77 : IVec S_ 1 := (fun x v => Host.reduce IntOp.andi x v reducesTo_S13_S_d0 h_S_) main_v76 main_c_29
  let main_v78 : IVec S_ 1 := andi main_v73 main_v77
  let main_v79 : FVec F S128x13 .f32 := Host.absf main_arg19
  let main_cst_30 : FVec F S_ .f32 := constant S_ .f32 0x7F800000#32
  let main_v80 : FVec F S128x13 .f32 := broadcastInDim S128x13 ![] bcast_S_S128x13 main_cst_30
  let main_v81 : IVec S128x13 1 := cmpf .olt main_v79 main_v80
  let main_c_31 : IVec S_ 1 := constantI S_ 1 1#1
  let main_v82 : IVec S_ 1 := (fun x v => Host.reduce IntOp.andi x v reducesTo_S128x13_S_d0_1 h_S_) main_v81 main_c_31
  let main_v83 : IVec S_ 1 := andi main_v78 main_v82
  let main_v84 : FVec F S13 .f32 := Host.absf main_arg20
  let main_cst_32 : FVec F S_ .f32 := constant S_ .f32 0x7F800000#32
  fn_part5 (F := F) main_v83 main_v84 main_cst_32

def fn_part3 {F : FTy → Type} [FloatOps F] (main_arg14 : FVec F S128 .f32) (main_arg15 : FVec F S128x128 .f32) (main_arg16 : FVec F S128 .f32) (main_arg17 : FVec F S128x13 .f32) (main_arg18 : FVec F S13 .f32) (main_arg19 : FVec F S128x13 .f32) (main_arg20 : FVec F S13 .f32) (main_v48 : IVec S_ 1) (main_v49 : FVec F S397x128 .f32) (main_v50 : FVec F S397x128 .f32) : IVec S_ 1 :=
  let main_v51 : IVec S397x128 1 := cmpf .olt main_v49 main_v50
  let main_c_19 : IVec S_ 1 := constantI S_ 1 1#1
  let main_v52 : IVec S_ 1 := (fun x v => Host.reduce IntOp.andi x v reducesTo_S397x128_S_d0_1 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg15
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg16
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg17 main_arg18 main_arg19 main_arg20 main_v63 main_v67

def fn_part2 {F : FTy → Type} [FloatOps F] (main_arg10 : FVec F S128 .f32) (main_arg11 : FVec F S128x128 .f32) (main_arg12 : FVec F S128 .f32) (main_arg13 : FVec F S397x128 .f32) (main_arg14 : FVec F S128 .f32) (main_arg15 : FVec F S128x128 .f32) (main_arg16 : FVec F S128 .f32) (main_arg17 : FVec F S128x13 .f32) (main_arg18 : FVec F S13 .f32) (main_arg19 : FVec F S128x13 .f32) (main_arg20 : FVec F S13 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S397x128 .f32 := Host.absf main_arg13
  let main_cst_18 : FVec F S_ .f32 := constant S_ .f32 0x7F800000#32
  let main_v50 : FVec F S397x128 .f32 := broadcastInDim S397x128 ![] bcast_S_S397x128 main_cst_18
  fn_part3 (F := F) main_arg14 main_arg15 main_arg16 main_arg17 main_arg18 main_arg19 main_arg20 main_v48 main_v49 main_v50

def fn_part1 {F : FTy → Type} [FloatOps F] (main_arg7 : FVec F S86x128 .f32) (main_arg8 : FVec F S128 .f32) (main_arg9 : FVec F S128x128 .f32) (main_arg10 : FVec F S128 .f32) (main_arg11 : FVec F S128x128 .f32) (main_arg12 : FVec F S128 .f32) (main_arg13 : FVec F S397x128 .f32) (main_arg14 : FVec F S128 .f32) (main_arg15 : FVec F S128x128 .f32) (main_arg16 : FVec F S128 .f32) (main_arg17 : FVec F S128x13 .f32) (main_arg18 : FVec F S13 .f32) (main_arg19 : FVec F S128x13 .f32) (main_arg20 : FVec F S13 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S86x128 .f32 := Host.absf main_arg7
  let main_cst_6 : FVec F S_ .f32 := constant S_ .f32 0x7F800000#32
  let main_v20 : FVec F S86x128 .f32 := broadcastInDim S86x128 ![] bcast_S_S86x128 main_cst_6
  let main_v21 : IVec S86x128 1 := cmpf .olt main_v19 main_v20
  let main_c_7 : IVec S_ 1 := constantI S_ 1 1#1
  let main_v22 : IVec S_ 1 := (fun x v => Host.reduce IntOp.andi x v reducesTo_S86x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_v33

def fn {F : FTy → Type} [FloatOps F] (main_arg0 : FVec F S800000x86 .f32) (main_arg1 : IVec S800000 32) (main_arg2 : FVec F S2000x86 .f32) (main_arg3 : IVec S100000 32) (main_arg4 : IVec S100000 32) (main_arg5 : FVec F S86x128 .f32) (main_arg6 : FVec F S128 .f32) (main_arg7 : FVec F S86x128 .f32) (main_arg8 : FVec F S128 .f32) (main_arg9 : FVec F S128x128 .f32) (main_arg10 : FVec F S128 .f32) (main_arg11 : FVec F S128x128 .f32) (main_arg12 : FVec F S128 .f32) (main_arg13 : FVec F S397x128 .f32) (main_arg14 : FVec F S128 .f32) (main_arg15 : FVec F S128x128 .f32) (main_arg16 : FVec F S128 .f32) (main_arg17 : FVec F S128x13 .f32) (main_arg18 : FVec F S13 .f32) (main_arg19 : FVec F S128x13 .f32) (main_arg20 : FVec F S13 .f32) : IVec S_ 1 :=
  let main_v0 : FVec F S800000x86 .f32 := Host.absf main_arg0
  let main_cst : FVec F S_ .f32 := constant S_ .f32 0x7F800000#32
  let main_v1 : FVec F S800000x86 .f32 := broadcastInDim S800000x86 ![] bcast_S_S800000x86 main_cst
  let main_v2 : IVec S800000x86 1 := cmpf .olt main_v0 main_v1
  let main_c : IVec S_ 1 := constantI S_ 1 1#1
  let main_v3 : IVec S_ 1 := (fun x v => Host.reduce IntOp.andi x v reducesTo_S800000x86_S_d0_1 h_S_) main_v2 main_c
  let main_v4 : FVec F S2000x86 .f32 := Host.absf main_arg2
  let main_cst_0 : FVec F S_ .f32 := constant S_ .f32 0x7F800000#32
  let main_v5 : FVec F S2000x86 .f32 := broadcastInDim S2000x86 ![] bcast_S_S2000x86 main_cst_0
  let main_v6 : IVec S2000x86 1 := cmpf .olt main_v4 main_v5
  let main_c_1 : IVec S_ 1 := constantI S_ 1 1#1
  let main_v7 : IVec S_ 1 := (fun x v => Host.reduce IntOp.andi x v reducesTo_S2000x86_S_d0_1 h_S_) main_v6 main_c_1
  let main_v8 : IVec S_ 1 := andi main_v3 main_v7
  let main_v9 : FVec F S86x128 .f32 := Host.absf main_arg5
  let main_cst_2 : FVec F S_ .f32 := constant S_ .f32 0x7F800000#32
  let main_v10 : FVec F S86x128 .f32 := broadcastInDim S86x128 ![] bcast_S_S86x128 main_cst_2
  let main_v11 : IVec S86x128 1 := cmpf .olt main_v9 main_v10
  let main_c_3 : IVec S_ 1 := constantI S_ 1 1#1
  let main_v12 : IVec S_ 1 := (fun x v => Host.reduce IntOp.andi x v reducesTo_S86x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_arg14 main_arg15 main_arg16 main_arg17 main_arg18 main_arg19 main_arg20 main_v13 main_v16
-- ==== Kernel.lean ====
abbrev S800000x86 : Shape := ⟨2, ![800000, 86]⟩
abbrev S800000 : Shape := ⟨1, ![800000]⟩
abbrev S2000x86 : Shape := ⟨2, ![2000, 86]⟩
abbrev S100000 : Shape := ⟨1, ![100000]⟩
abbrev S86x128 : Shape := ⟨2, ![86, 128]⟩
abbrev S128 : Shape := ⟨1, ![128]⟩
abbrev S128x128 : Shape := ⟨2, ![128, 128]⟩
abbrev S397x128 : Shape := ⟨2, ![397, 128]⟩
abbrev S128x13 : Shape := ⟨2, ![128, 13]⟩
abbrev S13 : Shape := ⟨1, ![13]⟩
abbrev S2000x128 : Shape := ⟨2, ![2000, 128]⟩
abbrev S1x128 : Shape := ⟨2, ![1, 128]⟩
abbrev S_ : Shape := ⟨0, ![]⟩
abbrev S100000x1 : Shape := ⟨2, ![100000, 1]⟩
abbrev S100000x128 : Shape := ⟨2, ![100000, 128]⟩
abbrev S800000x128 : Shape := ⟨2, ![800000, 128]⟩
abbrev S8000x86 : Shape := ⟨2, ![8000, 86]⟩
abbrev S8000x128 : Shape := ⟨2, ![8000, 128]⟩
abbrev S800000x1 : Shape := ⟨2, ![800000, 1]⟩
abbrev S1x13 : Shape := ⟨2, ![1, 13]⟩
abbrev S100000x13 : Shape := ⟨2, ![100000, 13]⟩
abbrev S13x128 : Shape := ⟨2, ![13, 128]⟩
abbrev S5000x128 : Shape := ⟨2, ![5000, 128]⟩
abbrev S5000x13 : Shape := ⟨2, ![5000, 13]⟩

abbrev nBuf : Space → Nat
  | .hbm => 82
  | .vmem => 31
  | .smem => 0
  | _ => 0

abbrev bufTy : (tb : Table) → Fin (tcTables nBuf tb) → BufTy
  | .hbm, ⟨0, _⟩ => ⟨S800000x86, .f32⟩
  | .hbm, ⟨1, _⟩ => ⟨S800000, .i32⟩
  | .hbm, ⟨2, _⟩ => ⟨S2000x86, .f32⟩
  | .hbm, ⟨3, _⟩ => ⟨S100000, .i32⟩
  | .hbm, ⟨4, _⟩ => ⟨S100000, .i32⟩
  | .hbm, ⟨5, _⟩ => ⟨S86x128, .f32⟩
  | .hbm, ⟨6, _⟩ => ⟨S128, .f32⟩
  | .hbm, ⟨7, _⟩ => ⟨S86x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S397x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x13, .f32⟩
  | .hbm, ⟨18, _⟩ => ⟨S13, .f32⟩
  | .hbm, ⟨19, _⟩ => ⟨S128x13, .f32⟩
  | .hbm, ⟨20, _⟩ => ⟨S13, .f32⟩
  | .hbm, ⟨21, _⟩ => ⟨S2000x128, .f32⟩
  | .hbm, ⟨22, _⟩ => ⟨S1x128, .f32⟩
  | .hbm, ⟨23, _⟩ => ⟨S2000x128, .f32⟩
  | .hbm, ⟨24, _⟩ => ⟨S2000x128, .f32⟩
  | .hbm, ⟨25, _⟩ => ⟨S_, .f32⟩
  | .hbm, ⟨26, _⟩ => ⟨S2000x128, .f32⟩
  | .hbm, ⟨27, _⟩ => ⟨S2000x128, .f32⟩
  | .hbm, ⟨28, _⟩ => ⟨S_, .i32⟩
  | .hbm, ⟨29, _⟩ => ⟨S100000, .i32⟩
  | .hbm, ⟨30, _⟩ => ⟨S100000, .i1⟩
  | .hbm, ⟨31, _⟩ => ⟨S_, .i32⟩
  | .hbm, ⟨32, _⟩ => ⟨S100000, .i32⟩
  | .hbm, ⟨33, _⟩ => ⟨S100000, .i32⟩
  | .hbm, ⟨34, _⟩ => ⟨S100000, .i32⟩
  | .hbm, ⟨35, _⟩ => ⟨S100000x1, .i32⟩
  | .hbm, ⟨36, _⟩ => ⟨S100000x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S800000x128, .bf16⟩
  | .hbm, ⟨41, _⟩ => ⟨S800000x128, .f32⟩
  | .hbm, ⟨42, _⟩ => ⟨S_, .f32⟩
  | .hbm, ⟨43, _⟩ => ⟨S100000x128, .f32⟩
  | .hbm, ⟨44, _⟩ => ⟨S800000x1, .i32⟩
  | .hbm, ⟨45, _⟩ => ⟨S100000x128, .f32⟩
  | .hbm, ⟨46, _⟩ => ⟨S_, .f32⟩
  | .hbm, ⟨47, _⟩ => ⟨S800000, .f32⟩
  | .hbm, ⟨48, _⟩ => ⟨S_, .f32⟩
  | .hbm, ⟨49, _⟩ => ⟨S100000, .f32⟩
  | .hbm, ⟨50, _⟩ => ⟨S800000x1, .i32⟩
  | .hbm, ⟨51, _⟩ => ⟨S100000, .f32⟩
  | .hbm, ⟨52, _⟩ => ⟨S_, .f32⟩
  | .hbm, ⟨53, _⟩ => ⟨S100000, .f32⟩
  | .hbm, ⟨54, _⟩ => ⟨S100000, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S100000, .i32⟩
  | .hbm, ⟨62, _⟩ => ⟨S100000, .i32⟩
  | .hbm, ⟨63, _⟩ => ⟨S_, .i32⟩
  | .hbm, ⟨64, _⟩ => ⟨S100000, .i32⟩
  | .hbm, ⟨65, _⟩ => ⟨S100000, .i32⟩
  | .hbm, ⟨66, _⟩ => ⟨S100000x1, .i32⟩
  | .hbm, ⟨67, _⟩ => ⟨S1x13, .i32⟩
  | .hbm, ⟨68, _⟩ => ⟨S100000x13, .i32⟩
  | .hbm, ⟨69, _⟩ => ⟨S100000x13, .i32⟩
  | .hbm, ⟨70, _⟩ => ⟨S100000x13, .i1⟩
  | .hbm, ⟨71, _⟩ => ⟨S100000x13, .f32⟩
  | .hbm, ⟨72, _⟩ => ⟨S128x128, .f32⟩
  | .hbm, ⟨73, _⟩ => ⟨S128x128, .f32⟩
  | .hbm, ⟨74, _⟩ => ⟨S128x128, .f32⟩
  | .hbm, ⟨75, _⟩ => ⟨S13x128, .f32⟩
  | .hbm, ⟨76, _⟩ => ⟨S1x128, .f32⟩
  | .hbm, ⟨77, _⟩ => ⟨S1x128, .f32⟩
  | .hbm, ⟨78, _⟩ => ⟨S1x13, .f32⟩
  | .hbm, ⟨79, _⟩ => ⟨S1x13, .f32⟩
  | .hbm, ⟨80, _⟩ => ⟨S100000x13, .f32⟩
  | .hbm, ⟨81, _⟩ => ⟨S100000x13, .f32⟩
  | .local _ .vmem, ⟨0, _⟩ => ⟨S8000x86, .f32⟩
  | .local _ .vmem, ⟨1, _⟩ => ⟨S8000x86, .f32⟩
  | .local _ .vmem, ⟨2, _⟩ => ⟨S86x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S8000x128, .bf16⟩
  | .local _ .vmem, ⟨9, _⟩ => ⟨S8000x128, .bf16⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x13, .f32⟩
  | .local _ .vmem, ⟨15, _⟩ => ⟨S5000x13, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S13x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S128x13, .f32⟩
  | .local _ .vmem, ⟨24, _⟩ => ⟨S1x13, .f32⟩
  | .local _ .vmem, ⟨25, _⟩ => ⟨S128x13, .f32⟩
  | .local _ .vmem, ⟨26, _⟩ => ⟨S1x13, .f32⟩
  | .local _ .vmem, ⟨27, _⟩ => ⟨S5000x13, .f32⟩
  | .local _ .vmem, ⟨28, _⟩ => ⟨S5000x13, .f32⟩
  | .local _ .vmem, ⟨29, _⟩ => ⟨S5000x13, .f32⟩
  | .local _ .vmem, ⟨30, _⟩ => ⟨S5000x13, .f32⟩
  | _, _ => ⟨S800000x86, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_call0_cst : Ref sig .tc := ⟨.hbm, 25, rfl⟩
abbrev main_call0_v0 : Ref sig .tc := ⟨.hbm, 26, rfl⟩
abbrev main_v4 : Ref sig .tc := ⟨.hbm, 27, rfl⟩
abbrev main_c : Ref sig .tc := ⟨.hbm, 28, rfl⟩
abbrev main_v5 : Ref sig .tc := ⟨.hbm, 29, rfl⟩
abbrev main_v6 : Ref sig .tc := ⟨.hbm, 30, rfl⟩
abbrev main_c_0 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_1 : Ref sig .tc := ⟨.hbm, 46, rfl⟩
abbrev main_v20 : Ref sig .tc := ⟨.hbm, 47, rfl⟩
abbrev main_cst_2 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_3 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c_4 : Ref sig .tc := ⟨.hbm, 58, rfl⟩
abbrev main_c_5 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_v29 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39_0 : Ref sig .tc := ⟨.hbm, 80, rfl⟩
abbrev main_v39_1 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg12_0 : Ref sig .tc := ⟨.vmem, 25, rfl⟩
abbrev cc1_stg13_0 : Ref sig .tc := ⟨.vmem, 26, rfl⟩
abbrev cc1_stg14_0 : Ref sig .tc := ⟨.vmem, 27, rfl⟩
abbrev cc1_stg14_1 : Ref sig .tc := ⟨.vmem, 28, rfl⟩
abbrev cc1_stg15_0 : Ref sig .tc := ⟨.vmem, 29, rfl⟩
abbrev cc1_stg15_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem10_0 : DmaSem sig := 23
abbrev cc1_sem11_0 : DmaSem sig := 24
abbrev cc1_sem12_0 : DmaSem sig := 25
abbrev cc1_sem13_0 : DmaSem sig := 26
abbrev cc1_sem14_0 : DmaSem sig := 27
abbrev cc1_sem14_1 : DmaSem sig := 28
abbrev cc1_sem15_0 : DmaSem sig := 29
abbrev cc1_sem15_1 : DmaSem sig := 30

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x86 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S86x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x13 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S13x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x13 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x13 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128x13 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x13 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S5000x13 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S5000x13 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

class Facts₀ : Prop where
  bcast_S128_S1x128_1 : S128.BroadcastsInDim S1x128 (![1] : Fin 1 → Fin S1x128.rank)
  bcast_S1x128_S2000x128_0_1 : S1x128.BroadcastsInDim S2000x128 (![0, 1] : Fin 2 → Fin S2000x128.rank)
  bcast_S_S2000x128 : S_.BroadcastsInDim S2000x128 (![] : Fin 0 → Fin S2000x128.rank)
  bcast_S_S100000 : S_.BroadcastsInDim S100000 (![] : Fin 0 → Fin S100000.rank)
  bcast_S100000_S100000x1_0 : S100000.BroadcastsInDim S100000x1 (![0] : Fin 1 → Fin S100000x1.rank)
  shapeCasts_S128_S1x128 : S128.ShapeCasts S1x128
  inb_S8000x86_S8000x86_0_0 : ∀ a, (![0, 0] : Fin 2 → Nat) a + S8000x86.size a ≤ S8000x86.size a
  h_S8000x86 : 0 < S8000x86.numel
  bitsLt_bf16_f32 : FTy.bits .bf16 < FTy.bits .f32
  inb_S86x128_S86x128_0_0 : ∀ a, (![0, 0] : Fin 2 → Nat) a + S86x128.size a ≤ S86x128.size a
  h_S86x128 : 0 < S86x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S128x128_S128x128_0_0 : ∀ a, (![0, 0] : Fin 2 → Nat) a + S128x128.size a ≤ S128x128.size a
  h_S128x128 : 0 < S128x128.numel
  inb_S8000x128_S8000x128_0_0 : ∀ a, (![0, 0] : Fin 2 → Nat) a + S8000x128.size a ≤ S8000x128.size a
  h_S8000x128 : 0 < S8000x128.numel
  packedbf16_S8000x128_S8000x128_0_0 : (Rect.unit (s := S8000x128) ![0, 0] S8000x128.size inb_S8000x128_S8000x128_0_0).PackedRows (EltTy.packing .bf16)
  bcast_S_S100000x128 : S_.BroadcastsInDim S100000x128 (![] : Fin 0 → Fin S100000x128.rank)
  bcast_S800000_S800000x1_0 : S800000.BroadcastsInDim S800000x1 (![0] : Fin 1 → Fin S800000x1.rank)
  bcast_S_S800000 : S_.BroadcastsInDim S800000 (![] : Fin 0 → Fin S800000.rank)
  bcast_S100000x1_S100000x128_0_1 : S100000x1.BroadcastsInDim S100000x128 (![0, 1] : Fin 2 → Fin S100000x128.rank)
  bcast_S100000x1_S100000x13_0_1 : S100000x1.BroadcastsInDim S100000x13 (![0, 1] : Fin 2 → Fin S100000x13.rank)
  bcast_S1x13_S100000x13_0_1 : S1x13.BroadcastsInDim S100000x13 (![0, 1] : Fin 2 → Fin S100000x13.rank)
  slices_S397x128_S128x128_0_0 : S397x128.Slices ![0, 0] S128x128
  slices_S397x128_S128x128_128_0 : S397x128.Slices ![128, 0] S128x128
  slices_S397x128_S128x128_256_0 : S397x128.Slices ![256, 0] S128x128
  slices_S397x128_S13x128_384_0 : S397x128.Slices ![384, 0] S13x128
  shapeCasts_S13_S1x13 : S13.ShapeCasts S1x13
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x13_S5000x13_0_0 : ∀ a, (![0, 0] : Fin 2 → Nat) a + S5000x13.size a ≤ S5000x13.size a
  h_S5000x13 : 0 < S5000x13.numel
  shapeCasts_S5000x13_S5000x13 : S5000x13.ShapeCasts S5000x13
  shapeCasts_S128x128_S128x128 : S128x128.ShapeCasts S128x128
  inb_S13x128_S13x128_0_0 : ∀ a, (![0, 0] : Fin 2 → Nat) a + S13x128.size a ≤ S13x128.size a
  h_S13x128 : 0 < S13x128.numel
  shapeCasts_S13x128_S13x128 : S13x128.ShapeCasts S13x128
  broadcasts_S1x128_S5000x128 : S1x128.Broadcasts S5000x128
  inb_S128x13_S128x13_0_0 : ∀ a, (![0, 0] : Fin 2 → Nat) a + S128x13.size a ≤ S128x13.size a
  h_S128x13 : 0 < S128x13.numel
  inb_S1x13_S1x13_0_0 : ∀ a, (![0, 0] : Fin 2 → Nat) a + S1x13.size a ≤ S1x13.size a
  h_S1x13 : 0 < S1x13.numel
  shapeCasts_S1x13_S1x13 : S1x13.ShapeCasts S1x13
  broadcasts_S1x13_S5000x13 : S1x13.Broadcasts S5000x13
  dot_S2000x86_S86x128_S2000x128_1_0_0_1_n_n_wf : DotDims.WF S2000x86 S86x128 S2000x128 [1] [0] [0] [1] [] []
  gather_S2000x128_S100000x1_S100000x128_1_0_n_n_0_1_1128_wf : GatherDims.WF S2000x128 S100000x1 S100000x128 [1] [0] [] [0] [] 1 ![1, 128]
  dot_S8000x86_S86x128_S8000x128_1_0_0_1_n_n_wf : DotDims.WF S8000x86 S86x128 S8000x128 [1] [0] [0] [1] [] []
  dot_S8000x128_S128x128_S8000x128_1_0_0_1_n_n_wf : DotDims.WF S8000x128 S128x128 S8000x128 [1] [0] [0] [1] [] []
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S5000x128_S128x128_S5000x128_1_0_0_1_n_n_wf : DotDims.WF S5000x128 S128x128 S5000x128 [1] [0] [0] [1] [] []
  dot_S5000x13_S13x128_S5000x128_1_0_0_1_n_n_wf : DotDims.WF S5000x13 S13x128 S5000x128 [1] [0] [0] [1] [] []
  dot_S5000x128_S128x13_S5000x13_1_0_0_1_n_n_wf : DotDims.WF S5000x128 S128x13 S5000x13 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x86.size a ≤ S800000x86.size a
  hwx0_0 : ∀ i : grid0.Coords, EltTy.bits .f32 = 32 ∨ (Rect.block (s := S800000x86) S8000x86.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S86x128.size a ≤ S86x128.size a
  hwx0_1 : ∀ i : grid0.Coords, EltTy.bits .f32 = 32 ∨ (Rect.block (s := S86x128) S86x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x128.size a ≤ S800000x128.size a
  hwx0_7 : ∀ i : grid0.Coords, EltTy.bits .bf16 = 32 ∨ (Rect.block (s := S800000x128) S8000x128.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x13.size a ≤ S100000x13.size a
  hwx1_2 : ∀ i : grid1.Coords, EltTy.bits .f32 = 32 ∨ (Rect.block (s := S100000x13) S5000x13.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S13x128.size a ≤ S13x128.size a
  hwx1_6 : ∀ i : grid1.Coords, EltTy.bits .f32 = 32 ∨ (Rect.block (s := S13x128) S13x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x13.size a ≤ S128x13.size a
  hwx1_10 : ∀ i : grid1.Coords, EltTy.bits .f32 = 32 ∨ (Rect.block (s := S128x13) S128x13.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x13.size a ≤ S1x13.size a
  hwx1_11 : ∀ i : grid1.Coords, EltTy.bits .f32 = 32 ∨ (Rect.block (s := S1x13) S1x13.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S128x13.size a ≤ S128x13.size a
  hwx1_12 : ∀ i : grid1.Coords, EltTy.bits .f32 = 32 ∨ (Rect.block (s := S128x13) S128x13.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x13.size a ≤ S1x13.size a
  hwx1_13 : ∀ i : grid1.Coords, EltTy.bits .f32 = 32 ∨ (Rect.block (s := S1x13) S1x13.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S5000x13.size a ≤ S100000x13.size a
  hwx1_14 : ∀ i : grid1.Coords, EltTy.bits .f32 = 32 ∨ (Rect.block (s := S100000x13) S5000x13.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S5000x13.size a ≤ S100000x13.size a
  hwx1_15 : ∀ i : grid1.Coords, EltTy.bits .f32 = 32 ∨ (Rect.block (s := S100000x13) S5000x13.size (cc1_transform_15 i) (hinb1_15 i)).WholeWords (EltTy.packing .f32)

variable [Facts₀]

def dot_S2000x86_S86x128_S2000x128_1_0_0_1_n_n : DotDims S2000x86 S86x128 S2000x128 where
  lhsContracting := [1]
  rhsContracting := [0]
  lhsNonContracting := [0]
  rhsNonContracting := [1]
  lhsBatch := []
  rhsBatch := []
  wf := dot_S2000x86_S86x128_S2000x128_1_0_0_1_n_n_wf
def gather_S2000x128_S100000x1_S100000x128_1_0_n_n_0_1_1128 : GatherDims S2000x128 S100000x1 S100000x128 where
  offsetDims := [1]
  collapsedSliceDims := [0]
  operandBatchingDims := []
  startIndicesBatchingDims := []
  startIndexMap := [0]
  indexVectorDim := 1
  sliceSizes := ![1, 128]
  wf := gather_S2000x128_S100000x1_S100000x128_1_0_n_n_0_1_1128_wf
def dot_S8000x86_S86x128_S8000x128_1_0_0_1_n_n : DotDims S8000x86 S86x128 S8000x128 where
  lhsContracting := [1]
  rhsContracting := [0]
  lhsNonContracting := [0]
  rhsNonContracting := [1]
  lhsBatch := []
  rhsBatch := []
  wf := dot_S8000x86_S86x128_S8000x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x13_S13x128_S5000x128_1_0_0_1_n_n : DotDims S5000x13 S13x128 S5000x128 where
  lhsContracting := [1]
  rhsContracting := [0]
  lhsNonContracting := [0]
  rhsNonContracting := [1]
  lhsBatch := []
  rhsBatch := []
  wf := dot_S5000x13_S13x128_S5000x128_1_0_0_1_n_n_wf
def dot_S5000x128_S128x13_S5000x13_1_0_0_1_n_n : DotDims S5000x128 S128x13 S5000x13 where
  lhsContracting := [1]
  rhsContracting := [0]
  lhsNonContracting := [0]
  rhsNonContracting := [1]
  lhsBatch := []
  rhsBatch := []
  wf := dot_S5000x128_S128x13_S5000x13_1_0_0_1_n_n_wf

abbrev win0_0 : Pipeline.Window sig grid0 :=
  Pipeline.Window.ofSpec (Memref.whole main_arg0) S8000x86.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S86x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg11) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S8000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v11) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S5000x13.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v31) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S13x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v35) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg15) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v36) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg17) S128x13.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v37) S1x13.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg19) S128x13.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v38) S1x13.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v39_0) S5000x13.size cc1_transform_14 reads1_14 true false 2 stage1_14 sem1_14
    hrank1 hreads1_14 hinb1_14 nbuf1_14 (Memref.isWhole_whole _) hwx1_14 hstage1_14

abbrev win1_15 : Pipeline.Window sig grid1 :=
  Pipeline.Window.ofSpec (Memref.whole main_v39_1) S5000x13.size cc1_transform_15 reads1_15 true false 2 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

class Facts : Prop extends Facts₀ where

variable [Facts]
-- ==== ReferenceIdeal.lean ====
abbrev S800000x86 : Shape := ⟨2, ![800000, 86]⟩
abbrev S800000 : Shape := ⟨1, ![800000]⟩
abbrev S2000x86 : Shape := ⟨2, ![2000, 86]⟩
abbrev S100000 : Shape := ⟨1, ![100000]⟩
abbrev S86x128 : Shape := ⟨2, ![86, 128]⟩
abbrev S128 : Shape := ⟨1, ![128]⟩
abbrev S128x128 : Shape := ⟨2, ![128, 128]⟩
abbrev S397x128 : Shape := ⟨2, ![397, 128]⟩
abbrev S128x13 : Shape := ⟨2, ![128, 13]⟩
abbrev S13 : Shape := ⟨1, ![13]⟩
abbrev S2000x128 : Shape := ⟨2, ![2000, 128]⟩
abbrev S1x128 : Shape := ⟨2, ![1, 128]⟩
abbrev S_ : Shape := ⟨0, ![]⟩
abbrev S100000x1 : Shape := ⟨2, ![100000, 1]⟩
abbrev S100000x128 : Shape := ⟨2, ![100000, 128]⟩
abbrev S800000x128 : Shape := ⟨2, ![800000, 128]⟩
abbrev S800000x1 : Shape := ⟨2, ![800000, 1]⟩
abbrev S1x13 : Shape := ⟨2, ![1, 13]⟩
abbrev S100000x13 : Shape := ⟨2, ![100000, 13]⟩
abbrev S100000x397 : Shape := ⟨2, ![100000, 397]⟩

abbrev nBuf : Space → Nat
  | .hbm => 117
  | .vmem => 0
  | .smem => 0
  | _ => 0

abbrev bufTy : (tb : Table) → Fin (tcTables nBuf tb) → BufTy
  | .hbm, ⟨0, _⟩ => ⟨S800000x86, .f32⟩
  | .hbm, ⟨1, _⟩ => ⟨S800000, .i32⟩
  | .hbm, ⟨2, _⟩ => ⟨S2000x86, .f32⟩
  | .hbm, ⟨3, _⟩ => ⟨S100000, .i32⟩
  | .hbm, ⟨4, _⟩ => ⟨S100000, .i32⟩
  | .hbm, ⟨5, _⟩ => ⟨S86x128, .f32⟩
  | .hbm, ⟨6, _⟩ => ⟨S128, .f32⟩
  | .hbm, ⟨7, _⟩ => ⟨S86x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S397x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x13, .f32⟩
  | .hbm, ⟨18, _⟩ => ⟨S13, .f32⟩
  | .hbm, ⟨19, _⟩ => ⟨S128x13, .f32⟩
  | .hbm, ⟨20, _⟩ => ⟨S13, .f32⟩
  | .hbm, ⟨21, _⟩ => ⟨S2000x128, .f32⟩
  | .hbm, ⟨22, _⟩ => ⟨S1x128, .f32⟩
  | .hbm, ⟨23, _⟩ => ⟨S2000x128, .f32⟩
  | .hbm, ⟨24, _⟩ => ⟨S2000x128, .f32⟩
  | .hbm, ⟨25, _⟩ => ⟨S_, .f32⟩
  | .hbm, ⟨26, _⟩ => ⟨S2000x128, .f32⟩
  | .hbm, ⟨27, _⟩ => ⟨S2000x128, .f32⟩
  | .hbm, ⟨28, _⟩ => ⟨S_, .i32⟩
  | .hbm, ⟨29, _⟩ => ⟨S100000, .i32⟩
  | .hbm, ⟨30, _⟩ => ⟨S100000, .i1⟩
  | .hbm, ⟨31, _⟩ => ⟨S_, .i32⟩
  | .hbm, ⟨32, _⟩ => ⟨S100000, .i32⟩
  | .hbm, ⟨33, _⟩ => ⟨S100000, .i32⟩
  | .hbm, ⟨34, _⟩ => ⟨S100000, .i32⟩
  | .hbm, ⟨35, _⟩ => ⟨S100000x1, .i32⟩
  | .hbm, ⟨36, _⟩ => ⟨S100000x128, .f32⟩
  | .hbm, ⟨37, _⟩ => ⟨S800000x128, .f32⟩
  | .hbm, ⟨38, _⟩ => ⟨S1x128, .f32⟩
  | .hbm, ⟨39, _⟩ => ⟨S800000x128, .f32⟩
  | .hbm, ⟨40, _⟩ => ⟨S800000x128, .f32⟩
  | .hbm, ⟨41, _⟩ => ⟨S800000x128, .f32⟩
  | .hbm, ⟨42, _⟩ => ⟨S1x128, .f32⟩
  | .hbm, ⟨43, _⟩ => ⟨S800000x128, .f32⟩
  | .hbm, ⟨44, _⟩ => ⟨S800000x128, .f32⟩
  | .hbm, ⟨45, _⟩ => ⟨S_, .f32⟩
  | .hbm, ⟨46, _⟩ => ⟨S800000x128, .f32⟩
  | .hbm, ⟨47, _⟩ => ⟨S800000x128, .f32⟩
  | .hbm, ⟨48, _⟩ => ⟨S800000x128, .f32⟩
  | .hbm, ⟨49, _⟩ => ⟨S1x128, .f32⟩
  | .hbm, ⟨50, _⟩ => ⟨S800000x128, .f32⟩
  | .hbm, ⟨51, _⟩ => ⟨S800000x128, .f32⟩
  | .hbm, ⟨52, _⟩ => ⟨S_, .f32⟩
  | .hbm, ⟨53, _⟩ => ⟨S800000x128, .f32⟩
  | .hbm, ⟨54, _⟩ => ⟨S800000x128, .f32⟩
  | .hbm, ⟨55, _⟩ => ⟨S_, .f32⟩
  | .hbm, ⟨56, _⟩ => ⟨S100000x128, .f32⟩
  | .hbm, ⟨57, _⟩ => ⟨S800000x1, .i32⟩
  | .hbm, ⟨58, _⟩ => ⟨S100000x128, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S100000, .f32⟩
  | .hbm, ⟨63, _⟩ => ⟨S800000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S100000, .i32⟩
  | .hbm, ⟨75, _⟩ => ⟨S100000, .i32⟩
  | .hbm, ⟨76, _⟩ => ⟨S_, .i32⟩
  | .hbm, ⟨77, _⟩ => ⟨S100000, .i32⟩
  | .hbm, ⟨78, _⟩ => ⟨S100000, .i32⟩
  | .hbm, ⟨79, _⟩ => ⟨S100000x1, .i32⟩
  | .hbm, ⟨80, _⟩ => ⟨S1x13, .i32⟩
  | .hbm, ⟨81, _⟩ => ⟨S100000x13, .i32⟩
  | .hbm, ⟨82, _⟩ => ⟨S100000x13, .i32⟩
  | .hbm, ⟨83, _⟩ => ⟨S100000x13, .i1⟩
  | .hbm, ⟨84, _⟩ => ⟨S100000x13, .f32⟩
  | .hbm, ⟨85, _⟩ => ⟨S100000x128, .f32⟩
  | .hbm, ⟨86, _⟩ => ⟨S100000x397, .f32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S100000x128, .f32⟩
  | .hbm, ⟨93, _⟩ => ⟨S100000x128, .f32⟩
  | .hbm, ⟨94, _⟩ => ⟨S100000x128, .f32⟩
  | .hbm, ⟨95, _⟩ => ⟨S1x128, .f32⟩
  | .hbm, ⟨96, _⟩ => ⟨S100000x128, .f32⟩
  | .hbm, ⟨97, _⟩ => ⟨S100000x128, .f32⟩
  | .hbm, ⟨98, _⟩ => ⟨S_, .f32⟩
  | .hbm, ⟨99, _⟩ => ⟨S100000x128, .f32⟩
  | .hbm, ⟨100, _⟩ => ⟨S100000x128, .f32⟩
  | .hbm, ⟨101, _⟩ => ⟨S100000x13, .f32⟩
  | .hbm, ⟨102, _⟩ => ⟨S1x13, .f32⟩
  | .hbm, ⟨103, _⟩ => ⟨S100000x13, .f32⟩
  | .hbm, ⟨104, _⟩ => ⟨S100000x13, .f32⟩
  | .hbm, ⟨105, _⟩ => ⟨S100000x13, .f32⟩
  | .hbm, ⟨106, _⟩ => ⟨S100000x13, .f32⟩
  | .hbm, ⟨107, _⟩ => ⟨S_, .f32⟩
  | .hbm, ⟨108, _⟩ => ⟨S100000x13, .f32⟩
  | .hbm, ⟨109, _⟩ => ⟨S100000x13, .f32⟩
  | .hbm, ⟨110, _⟩ => ⟨S_, .f32⟩
  | .hbm, ⟨111, _⟩ => ⟨S100000x13, .f32⟩
  | .hbm, ⟨112, _⟩ => ⟨S100000x13, .f32⟩
  | .hbm, ⟨113, _⟩ => ⟨S100000x13, .f32⟩
  | .hbm, ⟨114, _⟩ => ⟨S1x13, .f32⟩
  | .hbm, ⟨115, _⟩ => ⟨S100000x13, .f32⟩
  | .hbm, ⟨116, _⟩ => ⟨S100000x13, .f32⟩
  | _, _ => ⟨S800000x86, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_call0_cst : Ref sig .tc := ⟨.hbm, 25, rfl⟩
abbrev main_call0_v0 : Ref sig .tc := ⟨.hbm, 26, rfl⟩
abbrev main_v4 : Ref sig .tc := ⟨.hbm, 27, rfl⟩
abbrev main_c : Ref sig .tc := ⟨.hbm, 28, rfl⟩
abbrev main_v5 : Ref sig .tc := ⟨.hbm, 29, rfl⟩
abbrev main_v6 : Ref sig .tc := ⟨.hbm, 30, rfl⟩
abbrev main_c_0 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_call1_cst : Ref sig .tc := ⟨.hbm, 45, rfl⟩
abbrev main_call1_v0 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_call2_cst : Ref sig .tc := ⟨.hbm, 52, rfl⟩
abbrev main_call2_v0 : Ref sig .tc := ⟨.hbm, 53, rfl⟩
abbrev main_v25 : Ref sig .tc := ⟨.hbm, 54, rfl⟩
abbrev main_cst : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_cst_1 : Ref sig .tc := ⟨.hbm, 59, rfl⟩
abbrev main_v29 : Ref sig .tc := ⟨.hbm, 60, rfl⟩
abbrev main_cst_2 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_3 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_c_4 : Ref sig .tc := ⟨.hbm, 71, rfl⟩
abbrev main_c_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_v38 : Ref sig .tc := ⟨.hbm, 78, rfl⟩
abbrev main_call4_v0 : Ref sig .tc := ⟨.hbm, 79, rfl⟩
abbrev main_call4_v1 : Ref sig .tc := ⟨.hbm, 80, rfl⟩
abbrev main_call4_v2 : Ref sig .tc := ⟨.hbm, 81, rfl⟩
abbrev main_call4_v3 : Ref sig .tc := ⟨.hbm, 82, rfl⟩
abbrev main_call4_v4 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_call5_cst : Ref sig .tc := ⟨.hbm, 91, rfl⟩
abbrev main_call5_v0 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_call6_cst : Ref sig .tc := ⟨.hbm, 98, rfl⟩
abbrev main_call6_v0 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_cst_6 : Ref sig .tc := ⟨.hbm, 107, rfl⟩
abbrev main_v58 : Ref sig .tc := ⟨.hbm, 108, rfl⟩
abbrev main_v59 : Ref sig .tc := ⟨.hbm, 109, rfl⟩
abbrev main_cst_7 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S2000x128_0_1 : S1x128.BroadcastsInDim S2000x128 (![0, 1] : Fin 2 → Fin S2000x128.rank)
  bcast_S_S2000x128 : S_.BroadcastsInDim S2000x128 (![] : Fin 0 → Fin S2000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S100000x128 : S_.BroadcastsInDim S100000x128 (![] : Fin 0 → Fin S100000x128.rank)
  bcast_S800000_S800000x1_0 : S800000.BroadcastsInDim S800000x1 (![0] : Fin 1 → Fin S800000x1.rank)
  bcast_S_S800000 : S_.BroadcastsInDim S800000 (![] : Fin 0 → Fin S800000.rank)
  bcast_S100000x1_S100000x128_0_1 : S100000x1.BroadcastsInDim S100000x128 (![0, 1] : Fin 2 → Fin S100000x128.rank)
  bcast_S100000x1_S100000x13_0_1 : S100000x1.BroadcastsInDim S100000x13 (![0, 1] : Fin 2 → Fin S100000x13.rank)
  bcast_S1x13_S100000x13_0_1 : S1x13.BroadcastsInDim S100000x13 (![0, 1] : Fin 2 → Fin S100000x13.rank)
  concatenates_S100000x128_S100000x128_S100000x128_S100000x13_S100000x397_d1 : Shape.Concatenates [S100000x128, S100000x128, S100000x128, S100000x13] S100000x397 1
  bcast_S1x128_S100000x128_0_1 : S1x128.BroadcastsInDim S100000x128 (![0, 1] : Fin 2 → Fin S100000x128.rank)
  bcast_S13_S1x13_1 : S13.BroadcastsInDim S1x13 (![1] : Fin 1 → Fin S1x13.rank)
  bcast_S_S100000x13 : S_.BroadcastsInDim S100000x13 (![] : Fin 0 → Fin S100000x13.rank)
  dot_S2000x86_S86x128_S2000x128_1_0_0_1_n_n_wf : DotDims.WF S2000x86 S86x128 S2000x128 [1] [0] [0] [1] [] []
  gather_S2000x128_S100000x1_S100000x128_1_0_n_n_0_1_1128_wf : GatherDims.WF S2000x128 S100000x1 S100000x128 [1] [0] [] [0] [] 1 ![1, 128]
  dot_S800000x86_S86x128_S800000x128_1_0_0_1_n_n_wf : DotDims.WF S800000x86 S86x128 S800000x128 [1] [0] [0] [1] [] []
  dot_S800000x128_S128x128_S800000x128_1_0_0_1_n_n_wf : DotDims.WF S800000x128 S128x128 S800000x128 [1] [0] [0] [1] [] []
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x397_S397x128_S100000x128_1_0_0_1_n_n_wf : DotDims.WF S100000x397 S397x128 S100000x128 [1] [0] [0] [1] [] []
  dot_S100000x128_S128x128_S100000x128_1_0_0_1_n_n_wf : DotDims.WF S100000x128 S128x128 S100000x128 [1] [0] [0] [1] [] []
  dot_S100000x128_S128x13_S100000x13_1_0_0_1_n_n_wf : DotDims.WF S100000x128 S128x13 S100000x13 [1] [0] [0] [1] [] []

variable [Facts₀]

def dot_S2000x86_S86x128_S2000x128_1_0_0_1_n_n : DotDims S2000x86 S86x128 S2000x128 where
  lhsContracting := [1]
  rhsContracting := [0]
  lhsNonContracting := [0]
  rhsNonContracting := [1]
  lhsBatch := []
  rhsBatch := []
  wf := dot_S2000x86_S86x128_S2000x128_1_0_0_1_n_n_wf
def gather_S2000x128_S100000x1_S100000x128_1_0_n_n_0_1_1128 : GatherDims S2000x128 S100000x1 S100000x128 where
  offsetDims := [1]
  collapsedSliceDims := [0]
  operandBatchingDims := []
  startIndicesBatchingDims := []
  startIndexMap := [0]
  indexVectorDim := 1
  sliceSizes := ![1, 128]
  wf := gather_S2000x128_S100000x1_S100000x128_1_0_n_n_0_1_1128_wf
def dot_S800000x86_S86x128_S800000x128_1_0_0_1_n_n : DotDims S800000x86 S86x128 S800000x128 where
  lhsContracting := [1]
  rhsContracting := [0]
  lhsNonContracting := [0]
  rhsNonContracting := [1]
  lhsBatch := []
  rhsBatch := []
  wf := dot_S800000x86_S86x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x397_S397x128_S100000x128_1_0_0_1_n_n : DotDims S100000x397 S397x128 S100000x128 where
  lhsContracting := [1]
  rhsContracting := [0]
  lhsNonContracting := [0]
  rhsNonContracting := [1]
  lhsBatch := []
  rhsBatch := []
  wf := dot_S100000x397_S397x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x13_S100000x13_1_0_0_1_n_n : DotDims S100000x128 S128x13 S100000x13 where
  lhsContracting := [1]
  rhsContracting := [0]
  lhsNonContracting := [0]
  rhsNonContracting := [1]
  lhsBatch := []
  rhsBatch := []
  wf := dot_S100000x128_S128x13_S100000x13_1_0_0_1_n_n_wf

class Facts : Prop extends Facts₀ where

variable [Facts]
-- ==== Proof.RunOut.lean ====
/-
  The idealized kernel's run with its two result arrays named.

  The generated frame proves that every weakly fair execution of @main terminates without a fault in a state whose
  every unscoped buffer holds the last segment boundary's contents (the valuation W9: the launch memory folded
  through the host stretches and the two regions), and then reads only the argument arrays off that state. Read
  here are, besides, the two result buffers: each ends at W9's value there.
-/
import proofs.«108183_j29016799052510_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates without a fault, the two result arrays at the last boundary's
    contents and the argument arrays as launched. -/
theorem run_out : θ_run defs (onTc (τ := τ) (main (F := F))) ⟨m, fun _ => 0, ρ⟩ (fun r => ∀ c : Dev nD,
      r.2.mem ((c.tc : Thread nD τ).loc main_v39_0) = W9 m ρ c (Proc.devRef .tc main_v39_0)
      ∧ r.2.mem ((c.tc : Thread nD τ).loc main_v39_1) = W9 m ρ c (Proc.devRef .tc main_v39_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v39_0 (by decide)),
       h c _ (mem_uc main_v39_1 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c),
       (h c _ (mem_uc main_arg17 (by decide))).trans (W9_main_arg17 m ρ c),
       (h c _ (mem_uc main_arg18 (by decide))).trans (W9_main_arg18 m ρ c),
       (h c _ (mem_uc main_arg19 (by decide))).trans (W9_main_arg19 m ρ c),
       (h c _ (mem_uc main_arg20 (by decide))).trans (W9_main_arg20 m ρ c)⟩)

end Cert.KernelIdeal.Hand

end
-- ==== Proof.Rows.lean ====
/-
  The two programs' mathematics, one row at a time.

  Every array the programs compute whose leading axis is a node or a fragment is computed row by row: row r of the
  result depends on row r of the row-indexed operands and on whole weight matrices and bias vectors. So each stage is
  stated here as a function of ONE row (a function of the column index) with the weights and biases as plain functions
  of their indices; a block of rows, a sliced weight matrix, a reshaped or broadcast bias all read the same entries.

    affine x w b j     = (sum over k of x k * w k j) + b j
    nodeRow x ...      = relu (affine (relu (affine (affine x win bin) wg1 bg1)) wg2 bg2)        (the node pass)
    first e a o W b j  = relu ((((e . W[0:128]) + ((e - a) . W[128:256])) + (a . W[256:384])) + (o . W[384:397]) + b j)
    hidden             = relu (affine first w2 b2)
    outRow             = logistic (affine hidden wout bout)         attnRow = affine hidden wattn battn

  and the one law that joins the two programs' first head layer: a sum over the 397 joined columns is the sum of the
  four pieces' sums (addition on the extended reals is commutative and associative; nothing needs to be finite).
-/
import Idealize.ShloMosaic.Lib.ValueIdx
import Idealize.ShloMosaic.PureOps.Ideal.Laws

noncomputable section

open scoped BigOperators

namespace Cert.Rows

open Idealize.ShloMosaic

/-- The rectifier: the maximum with the float zero. -/
def relu (x : Ideal .f32) : Ideal .f32 := max x (Ideal.ofBits .f32 0x00000000#32)

/-- Entry j of the row x times the matrix w, plus the bias. -/
def affine {K D : Nat} (x : Fin K → Ideal .f32) (w : Fin K → Fin D → Ideal .f32) (b : Fin D → Ideal .f32) (j : Fin D) : Ideal .f32 :=
  (∑ k : Fin K, x k * w k j) + b j

/-- One row of the node pass: an affine layer, then two rectified affine layers. -/
def nodeRow (x : Fin 86 → Ideal .f32) (win : Fin 86 → Fin 128 → Ideal .f32) (bin : Fin 128 → Ideal .f32)
    (wg1 : Fin 128 → Fin 128 → Ideal .f32) (bg1 : Fin 128 → Ideal .f32)
    (wg2 : Fin 128 → Fin 128 → Ideal .f32) (bg2 : Fin 128 → Ideal .f32) (j : Fin 128) : Ideal .f32 :=
  relu (affine (fun k => relu (affine (affine x win bin) wg1 bg1 k)) wg2 bg2 j)

/-- The four row ranges of the joined 397 columns: [0,128), [128,256), [256,384), [384,397). -/
def seg0 (k : Fin 128) : Fin 397 := ⟨k.val, by have := k.isLt; omega⟩
def seg1 (k : Fin 128) : Fin 397 := ⟨128 + k.val, by have := k.isLt; omega⟩
def seg2 (k : Fin 128) : Fin 397 := ⟨256 + k.val, by have := k.isLt; omega⟩
def seg3 (k : Fin 13) : Fin 397 := ⟨384 + k.val, by have := k.isLt; omega⟩

/-- One row of the head's first layer, as the sum of the four pieces' products: the root row e, the difference
    e - a, the pooled row a and the one-hot row o, each against its range of rows of the weight matrix W. -/
def first (e a : Fin 128 → Ideal .f32) (o : Fin 13 → Ideal .f32) (W : Fin 397 → Fin 128 → Ideal .f32)
    (b : Fin 128 → Ideal .f32) (j : Fin 128) : Ideal .f32 :=
  relu (((((∑ k : Fin 128, e k * W (seg0 k) j) + (∑ k : Fin 128, (e k - a k) * W (seg1 k) j))
      + (∑ k : Fin 128, a k * W (seg2 k) j)) + (∑ k : Fin 13, o k * W (seg3 k) j)) + b j)

/-- One row of the head's hidden layer. -/
def hidden (e a : Fin 128 → Ideal .f32) (o : Fin 13 → Ideal .f32) (W : Fin 397 → Fin 128 → Ideal .f32) (b1 : Fin 128 → Ideal .f32)
    (w2 : Fin 128 → Fin 128 → Ideal .f32) (b2 : Fin 128 → Ideal .f32) (j : Fin 128) : Ideal .f32 :=
  relu (affine (first e a o W b1) w2 b2 j)

/-- One row of the first result: the logistic function of the output layer. -/
def outRow (e a : Fin 128 → Ideal .f32) (o : Fin 13 → Ideal .f32) (W : Fin 397 → Fin 128 → Ideal .f32) (b1 : Fin 128 → Ideal .f32)
    (w2 : Fin 128 → Fin 128 → Ideal .f32) (b2 : Fin 128 → Ideal .f32)
    (wo : Fin 128 → Fin 13 → Ideal .f32) (bo : Fin 13 → Ideal .f32) (q : Fin 13) : Ideal .f32 :=
  Ideal.logistic (affine (hidden e a o W b1 w2 b2) wo bo q)

/-- One row of the second result: the attention layer, no activation. -/
def attnRow (e a : Fin 128 → Ideal .f32) (o : Fin 13 → Ideal .f32) (W : Fin 397 → Fin 128 → Ideal .f32) (b1 : Fin 128 → Ideal .f32)
    (w2 : Fin 128 → Fin 128 → Ideal .f32) (b2 : Fin 128 → Ideal .f32)
    (wa : Fin 128 → Fin 13 → Ideal .f32) (ba : Fin 13 → Ideal .f32) (q : Fin 13) : Ideal .f32 :=
  affine (hidden e a o W b1 w2 b2) wa ba q

/-- The joined row: e, e - a, a, o side by side. -/
def joined (e a : Fin 128 → Ideal .f32) (o : Fin 13 → Ideal .f32) (k : Fin 397) : Ideal .f32 :=
  if h0 : k.val < 128 then e ⟨k.val, h0⟩
  else if h1 : k.val < 256 then e ⟨k.val - 128, by omega⟩ - a ⟨k.val - 128, by omega⟩
  else if h2 : k.val < 384 then a ⟨k.val - 256, by omega⟩
  else o ⟨k.val - 384, by have := k.isLt; omega⟩

/-- A sum over the 397 joined columns is the sum of the four ranges' sums. -/
theorem sum_joined (f : Fin 397 → Ideal .f32) :
    (∑ k : Fin 397, f k) = (((∑ k : Fin 128, f (seg0 k)) + (∑ k : Fin 128, f (seg1 k))) + (∑ k : Fin 128, f (seg2 k))) + (∑ k : Fin 13, f (seg3 k)) := by
  have h := Fin.sum_univ_add (M := EReal) (a := 128 + 128 + 128) (b := 13) (fun k => f (k.cast (by rfl)))
  have h1 := Fin.sum_univ_add (M := EReal) (a := 128 + 128) (b := 128) (fun k => f ((Fin.castAdd 13 k).cast (by rfl)))
  have h2 := Fin.sum_univ_add (M := EReal) (a := 128) (b := 128) (fun k => f ((Fin.castAdd 13 (Fin.castAdd 128 k)).cast (by rfl)))
  rw [h1, h2] at h
  exact h

/-- The head's first layer on the joined row against the whole weight matrix is `first`. -/
theorem first_eq_joined (e a : Fin 128 → Ideal .f32) (o : Fin 13 → Ideal .f32) (W : Fin 397 → Fin 128 → Ideal .f32)
    (b : Fin 128 → Ideal .f32) (j : Fin 128) :
    relu (affine (joined e a o) W b j) = first e a o W b j := by
  unfold first affine
  rw [sum_joined]
  have e0 : ∀ k : Fin 128, joined e a o (seg0 k) = e k := fun k => by
    unfold joined seg0; rw [dif_pos k.isLt]
  have e1 : ∀ k : Fin 128, joined e a o (seg1 k) = e k - a k := fun k => by
    have := k.isLt
    unfold joined seg1
    rw [dif_neg (by simp <;> omega), dif_pos (by simp <;> omega)]
    simp
  have e2 : ∀ k : Fin 128, joined e a o (seg2 k) = a k := fun k => by
    have := k.isLt
    unfold joined seg2
    rw [dif_neg (by simp <;> omega), dif_neg (by simp <;> omega), dif_pos (by simp <;> omega)]
    simp
  have e3 : ∀ k : Fin 13, joined e a o (seg3 k) = o k := fun k => by
    have := k.isLt
    unfold joined seg3
    rw [dif_neg (by simp <;> omega), dif_neg (by simp <;> omega), dif_neg (by simp <;> omega)]
    simp
  simp only [e0, e1, e2, e3]

end Cert.Rows

end
-- ==== Proof.LibMlpAt.lean ====
/-
  The two-layer perceptron with rectifiers, read at one entry.

  For matrices x : [N, K], wa : [K, D], wb : [D, D] and one-row biases ba, bb : [1, D] the value at (r, q) is
      max (∑ j, max (∑ i, x[r,i] · wa[i,j] + ba[0,j]) 0 · wb[j,q] + bb[0,q]) 0
  on the extended reals. Two spellings of that function occur: the host's (two `dot_general`s, the biases broadcast
  along the rows, the rectifier a maximum with a broadcast zero) and a tile's (two matrix products into a zero
  accumulator with the operands narrowed to bf16 first, the biases broadcast as vectors). At the ideal values a change of
  format is the identity and both products are plain sums over the contracted coordinate, so each spelling reads the
  formula above at every entry; nothing here needs the entries to be finite.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Mlp

open Idealize.ShloMosaic Idealize.ShloMosaic.ValueIdx

/-! ## A plain matrix product's dimension numbers, and its sum -/

/-- The dimension numbers of a plain product [m, k] × [k, n] → [m, n]: contract the left operand's axis 1 with the
    right operand's axis 0. -/
abbrev D2 {m k n : Nat} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

variable {m k n : Nat}

/-- The left operand's index at output (a, b) and contracted coordinate c is (a, c). -/
theorem lhsIdx_D2 (w : DotDims.WF ⟨2, ![m, k]⟩ ⟨2, ![k, n]⟩ ⟨2, ![m, n]⟩ [1] [0] [0] [1] [] []) (a : Fin m) (b : Fin n) (c : Fin k) :
    (D2 w).lhsIdx (ix2 a b) ((contrEquiv1 (D2 w) k rfl rfl).symm c) = ix2 a c := by
  have c2 := contrEquiv1_symm_val (D2 w) k rfl rfl c
  funext ax; apply Fin.ext
  match ax with
  | ⟨0, _⟩ => simp [DotDims.lhsIdx]; rfl
  | ⟨1, _⟩ => simp [DotDims.lhsIdx]; exact c2

/-- The right operand's index at output (a, b) and contracted coordinate c is (c, b). -/
theorem rhsIdx_D2 (w : DotDims.WF ⟨2, ![m, k]⟩ ⟨2, ![k, n]⟩ ⟨2, ![m, n]⟩ [1] [0] [0] [1] [] []) (a : Fin m) (b : Fin n) (c : Fin k) :
    (D2 w).rhsIdx (ix2 a b) ((contrEquiv1 (D2 w) k rfl rfl).symm c) = ix2 c b := by
  have c2 := contrEquiv1_symm_val (D2 w) k rfl rfl c
  funext ax; apply Fin.ext
  match ax with
  | ⟨0, _⟩ => simp [DotDims.rhsIdx]; exact c2
  | ⟨1, _⟩ => simp [DotDims.rhsIdx]; rfl

/-- The host's product at (a, b): the sum over the contracted coordinate of the entries' products. -/
theorem dotGeneral_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (D2 w) prec A B (ix2 a b) = ∑ c : Fin k, A (ix2 a c) * B (ix2 c b) := by
  show FloatOps.dotGeneral _ prec _ A B (ix2 a b) = _
  rw [Ideal.dotGeneral_apply, ← Equiv.sum_comp (contrEquiv1 (D2 w) k rfl rfl).symm]
  refine Finset.sum_congr rfl fun c _ => ?_
  rw [lhsIdx_D2, rhsIdx_D2]

/-- A tile's product into a zero accumulator at (a, b): the same sum. -/
theorem matmul_zero_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (D2 w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (D2 w) k rfl rfl).symm]
  refine Finset.sum_congr rfl fun c _ => ?_
  rw [lhsIdx_D2, rhsIdx_D2]

/-! ## Broadcasts of a one-row bias and of a scalar, at an entry -/

/-- A [1, D] row broadcast along the rows of [N, D] reads, at (r, q), the row at q. -/
theorem bcastRow_at {N D : Nat} {α : Type} (h : (⟨2, ![1, D]⟩ : Shape).BroadcastsInDim ⟨2, ![N, D]⟩ (![0, 1] : Fin 2 → Fin 2))
    (v : (⟨2, ![1, D]⟩ : Shape).Idx → α) (r : Fin N) (q : Fin D) :
    broadcastInDim ⟨2, ![N, D]⟩ (![0, 1] : Fin 2 → Fin 2) h v (ix2 r q) = v (ix2 (0 : Fin 1) q) := by
  refine broadcastInDim_apply _ h v (ix2 r q) (ix2 (0 : Fin 1) q) fun ax => ?_
  match ax with
  | ⟨0, _⟩ => rfl
  | ⟨1, _⟩ =>
    show q.val = if D = 1 then 0 else q.val
    split
    · have := q.isLt; omega
    · rfl

/-- A scalar broadcast to [N, D] reads the scalar everywhere. -/
theorem bcastScalar_at {N D : Nat} {α : Type} (h : (⟨0, ![]⟩ : Shape).BroadcastsInDim ⟨2, ![N, D]⟩ (![] : Fin 0 → Fin 2))
    (v : (⟨0, ![]⟩ : Shape).Idx → α) (i : (⟨2, ![N, D]⟩ : Shape).Idx) :
    broadcastInDim ⟨2, ![N, D]⟩ (![] : Fin 0 → Fin 2) h v i = v ix0 :=
  broadcastInDim_apply _ h v i ix0 fun ax => ax.elim0

/-- A [D] vector viewed as its one row [1, D] is the vector broadcast along a new leading unit axis: both read the
    vector's entry i at (0, i). -/
theorem rowCast_eq_bcast {D : Nat} {α : Type} (x : (⟨1, ![D]⟩ : Shape).Idx → α) (h : (⟨1, ![D]⟩ : Shape).ShapeCasts ⟨2, ![1, D]⟩)
    (h' : (⟨1, ![D]⟩ : Shape).BroadcastsInDim ⟨2, ![1, D]⟩ (![1] : Fin 1 → Fin 2)) :
    shapeCast ⟨2, ![1, D]⟩ x h = broadcastInDim ⟨2, ![1, D]⟩ (![1] : Fin 1 → Fin 2) h' x := by
  funext j
  obtain ⟨u, i, rfl⟩ : ∃ (u : Fin 1) (i : Fin D), j = ix2 u i := ⟨j 0, j 1, eq_ix2 j⟩
  rw [shapeCast_a_1a_apply]
  refine (broadcastInDim_apply _ h' x (ix2 u i) (ix1 i) fun ax => ?_).symm
  match ax with
  | ⟨0, _⟩ =>
    show i.val = if D = 1 then 0 else i.val
    split
    · have := i.isLt; omega
    · rfl

/-! ## The perceptron at an entry -/

/-- The value at (r, q): the second layer's rectified affine map of the first layer's. -/
def mlpVal {N K D : Nat} (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) : Ideal .f32 :=
  max ((∑ j : Fin D, max ((∑ i : Fin K, x (ix2 r i) * wa (ix2 i j)) + ba (ix2 (0 : Fin 1) j)) (Ideal.ofBits .f32 0x00000000#32) * wb (ix2 j q))
    + bb (ix2 (0 : Fin 1) q)) (Ideal.ofBits .f32 0x00000000#32)

/-- The value at row r depends only on row r of x: two inputs with equal rows give equal values. -/
theorem mlpVal_congr_row {N N' K D : Nat} (x : FVec Ideal ⟨2, ![N, K]⟩ .f32) (x' : FVec Ideal ⟨2, ![N', K]⟩ .f32)
    (wa : FVec Ideal ⟨2, ![K, D]⟩ .f32) (ba : FVec Ideal ⟨2, ![1, D]⟩ .f32) (wb : FVec Ideal ⟨2, ![D, D]⟩ .f32) (bb : FVec Ideal ⟨2, ![1, D]⟩ .f32)
    (r : Fin N) (r' : Fin N') (hrow : ∀ i : Fin K, x (ix2 r i) = x' (ix2 r' i)) (q : Fin D) :
    mlpVal x wa ba wb bb r q = mlpVal x' wa ba wb bb r' q := by
  unfold mlpVal
  simp only [hrow]

/-- The host's spelling: two `dot_general`s, the biases broadcast along the rows, each rectifier a maximum with a
    broadcast zero. -/
def mlpHost {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![N, D]⟩ .f32 :=
  maximumf (addf (Host.dotGeneral (D2 wB) none
      (maximumf (addf (Host.dotGeneral (D2 wA) none x wa) (broadcastInDim ⟨2, ![N, D]⟩ (![0, 1] : Fin 2 → Fin 2) hb ba))
        (broadcastInDim ⟨2, ![N, D]⟩ (![] : Fin 0 → Fin 2) hz (constant (F := Ideal) ⟨0, ![]⟩ .f32 0x00000000#32))) wb)
      (broadcastInDim ⟨2, ![N, D]⟩ (![0, 1] : Fin 2 → Fin 2) hb bb))
    (broadcastInDim ⟨2, ![N, D]⟩ (![] : Fin 0 → Fin 2) hz (constant (F := Ideal) ⟨0, ![]⟩ .f32 0x00000000#32))

theorem mlpHost_at {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) :
    mlpHost wA wB hb hz x wa ba wb bb (ix2 r q) = mlpVal x wa ba wb bb r q := by
  unfold mlpHost mlpVal
  rw [maximumf_apply, addf_apply, dotGeneral_at, bcastRow_at, bcastScalar_at, constant_apply]
  refine congrArg (fun s => max (s + bb (ix2 (0 : Fin 1) q)) (Ideal.ofBits .f32 0x00000000#32)) ?_
  refine Finset.sum_congr rfl fun j _ => ?_
  rw [maximumf_apply, addf_apply, dotGeneral_at, bcastRow_at, bcastScalar_at, constant_apply]

/-- The host's spelling with the biases given as vectors [D], each made a row by a broadcast along a new unit axis. -/
def mlpHostV {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) : FVec Ideal ⟨2, ![N, D]⟩ .f32 :=
  mlpHost wA wB hb hz x wa (broadcastInDim ⟨2, ![1, D]⟩ (![1] : Fin 1 → Fin 2) hr ba) wb
    (broadcastInDim ⟨2, ![1, D]⟩ (![1] : Fin 1 → Fin 2) hr bb)

/-- With the biases reshaped to one row instead: the same array. -/
theorem mlpHost_rowCast {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (hc : (⟨1, ![D]⟩ : Shape).ShapeCasts ⟨2, ![1, D]⟩)
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) :
    mlpHost wA wB hb hz x wa (shapeCast ⟨2, ![1, D]⟩ ba hc) wb (shapeCast ⟨2, ![1, D]⟩ bb hc)
      = mlpHostV wA wB hb hz hr x wa ba wb bb := by
  unfold mlpHostV
  rw [rowCast_eq_bcast ba hc hr, rowCast_eq_bcast bb hc hr]

/-- A tile's spelling: the operands narrowed to bf16, two products into a zero accumulator, the biases broadcast as
    vectors, each rectifier a maximum with a splat zero. -/
def mlpTile {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![T, D]⟩ .f32 :=
  maximumf (addf (matmul (D2 wB) none
      (truncf .bf16 (maximumf (addf (matmul (D2 wA) none (truncf .bf16 x hlt) (truncf .bf16 wa hlt) (constant ⟨2, ![T, D]⟩ .f32 0x00000000#32))
          (broadcastTo ⟨2, ![T, D]⟩ ba hb)) (broadcast ⟨2, ![T, D]⟩ (Scalar.ofBits (F := Ideal) .f32 0x00000000#32))) hlt)
      (truncf .bf16 wb hlt) (constant ⟨2, ![T, D]⟩ .f32 0x00000000#32))
      (broadcastTo ⟨2, ![T, D]⟩ bb hb))
    (broadcast ⟨2, ![T, D]⟩ (Scalar.ofBits (F := Ideal) .f32 0x00000000#32))

theorem mlpTile_at {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (p : Fin T) (q : Fin D) :
    mlpTile wA wB hb hlt x wa ba wb bb (ix2 p q) = mlpVal x wa ba wb bb p q := by
  unfold mlpTile mlpVal
  rw [maximumf_apply, addf_apply, matmul_zero_at, broadcastTo_1b_ab_apply, broadcast_apply]
  refine congrArg (fun s => max (s + bb (ix2 (0 : Fin 1) q)) (Ideal.ofBits .f32 0x00000000#32)) ?_
  refine Finset.sum_congr rfl fun j _ => ?_
  rw [truncf_apply, truncf_apply, maximumf_apply, addf_apply, matmul_zero_at, broadcastTo_1b_ab_apply, broadcast_apply]
  refine congrArg (fun s => max (s + ba (ix2 (0 : Fin 1) j)) (Ideal.ofBits .f32 0x00000000#32) * wb (ix2 j q)) ?_
  refine Finset.sum_congr rfl fun i _ => ?_
  rw [truncf_apply, truncf_apply]

end Cert.Mlp

end
-- ==== Proof.Tiles.lean ====
/-
  What each kernel body stores, read at one entry.

  A body loads whole blocks, narrows them to bf16 (the identity at the ideal values), multiplies into a zero
  accumulator (a plain sum over the contracted coordinate), adds a one-row bias broadcast along the rows, and takes
  maxima with zero. So the stored tile's entry (p, q) is a function of ROW p of the row-indexed blocks and of the
  whole weight and bias blocks: the node pass's tile reads `Rows.nodeRow`, the head's two tiles read `Rows.outRow`
  and `Rows.attnRow`. The head's first layer multiplies four blocks (the root rows, their difference with the pooled
  rows, the pooled rows, the one-hot rows) against four weight blocks; they are stated here against ONE matrix W of
  397 rows of which the four blocks are the row ranges (hypotheses h0 … h3).
-/
import proofs.«108183_j29016799052510_1_alg».proof.Proof.Gen.KernelIdeal.Skeleton
import proofs.«108183_j29016799052510_1_alg».proof.Proof.Rows
import proofs.«108183_j29016799052510_1_alg».proof.Proof.LibMlpAt
import Idealize.ShloMosaic.Lib.ValueIdx
import Idealize.ShloMosaic.Lib.ValueLayout
import Idealize.ShloMosaic.Lib.Pipeline.Value

noncomputable section

open scoped BigOperators

namespace Cert.KernelIdeal.Tiles

open Cert.KernelIdeal Cert.KernelIdeal.Gen Idealize.ShloMosaic Idealize.ShloMosaic.ValueIdx

/-! ## The pieces of a tile's layer, as closed terms over abstract sizes -/

section Pieces
variable {T K D : Nat}

/-- A tile's product into a zero accumulator, the right operand narrowed to bf16. -/
def mm {φ : FTy} (w : DotDims.WF ⟨2, ![T, K]⟩ ⟨2, ![K, D]⟩ ⟨2, ![T, D]⟩ [1] [0] [0] [1] [] []) (hlt : FTy.bf16.bits < FTy.f32.bits)
    (x : FVec Ideal ⟨2, ![T, K]⟩ φ) (wt : FVec Ideal ⟨2, ![K, D]⟩ .f32) : FVec Ideal ⟨2, ![T, D]⟩ .f32 :=
  matmul (Cert.Mlp.D2 w) none x (truncf .bf16 wt hlt) (constant ⟨2, ![T, D]⟩ .f32 0x00000000#32)

theorem mm_at {φ : FTy} (w : DotDims.WF ⟨2, ![T, K]⟩ ⟨2, ![K, D]⟩ ⟨2, ![T, D]⟩ [1] [0] [0] [1] [] []) (hlt : FTy.bf16.bits < FTy.f32.bits)
    (x : FVec Ideal ⟨2, ![T, K]⟩ φ) (wt : FVec Ideal ⟨2, ![K, D]⟩ .f32) (p : Fin T) (j : Fin D) :
    mm w hlt x wt (ix2 p j) = ∑ k : Fin K, x (ix2 p k) * wt (ix2 k j) := by
  unfold mm
  rw [Cert.Mlp.matmul_zero_at]
  rfl

/-- A one-row bias broadcast along a tile's rows. -/
def rowB (hb : (⟨2, ![1, D]⟩ : Shape).Broadcasts ⟨2, ![T, D]⟩) (b : FVec Ideal ⟨2, ![1, D]⟩ .f32) : FVec Ideal ⟨2, ![T, D]⟩ .f32 :=
  broadcastTo ⟨2, ![T, D]⟩ b hb

theorem rowB_at (hb : (⟨2, ![1, D]⟩ : Shape).Broadcasts ⟨2, ![T, D]⟩) (b : FVec Ideal ⟨2, ![1, D]⟩ .f32) (p : Fin T) (j : Fin D) :
    rowB hb b (ix2 p j) = b (ix2 (0 : Fin 1) j) := by
  unfold rowB
  exact broadcastTo_1b_ab_apply b hb p j

/-- The rectifier on a tile: the maximum with a splat zero. -/
def reluT (x : FVec Ideal ⟨2, ![T, D]⟩ .f32) : FVec Ideal ⟨2, ![T, D]⟩ .f32 :=
  maximumf x (broadcast ⟨2, ![T, D]⟩ (Scalar.ofBits (F := Ideal) .f32 0x00000000#32))

theorem reluT_at (x : FVec Ideal ⟨2, ![T, D]⟩ .f32) (i : (⟨2, ![T, D]⟩ : Shape).Idx) : reluT x i = Cert.Rows.relu (x i) := rfl

/-- A tile's affine layer at an entry. -/
theorem lin_at {φ : FTy} (w : DotDims.WF ⟨2, ![T, K]⟩ ⟨2, ![K, D]⟩ ⟨2, ![T, D]⟩ [1] [0] [0] [1] [] []) (hlt : FTy.bf16.bits < FTy.f32.bits)
    (hb : (⟨2, ![1, D]⟩ : Shape).Broadcasts ⟨2, ![T, D]⟩)
    (x : FVec Ideal ⟨2, ![T, K]⟩ φ) (wt : FVec Ideal ⟨2, ![K, D]⟩ .f32) (b : FVec Ideal ⟨2, ![1, D]⟩ .f32) (p : Fin T) (j : Fin D) :
    addf (mm w hlt x wt) (rowB hb b) (ix2 p j)
      = Cert.Rows.affine (fun k => x (ix2 p k)) (fun k j => wt (ix2 k j)) (fun j => b (ix2 (0 : Fin 1) j)) j := by
  unfold Cert.Rows.affine
  rw [addf_apply, mm_at, rowB_at]

end Pieces

/-! ## The node pass's tile -/

/-- The node pass's stored tile as its three layers. -/
theorem node_tile (v0 : Vec Ideal S8000x86 .f32) (v2 : Vec Ideal S86x128 .f32) (v5 : Vec Ideal S1x128 .f32) (v9 : Vec Ideal S128x128 .f32)
    (v13 : Vec Ideal S1x128 .f32) (v19 : Vec Ideal S128x128 .f32) (v23 : Vec Ideal S1x128 .f32) :
    k0_pay1 v0 v2 v5 v9 v13 v19 v23
      = truncf .bf16 (reluT (addf (mm dot_S8000x128_S128x128_S8000x128_1_0_0_1_n_n_wf bitsLt_bf16_f32
          (truncf .bf16 (reluT (addf (mm dot_S8000x128_S128x128_S8000x128_1_0_0_1_n_n_wf bitsLt_bf16_f32
            (truncf .bf16 (addf (mm dot_S8000x86_S86x128_S8000x128_1_0_0_1_n_n_wf bitsLt_bf16_f32 (truncf .bf16 v0 bitsLt_bf16_f32) v2)
              (rowB broadcasts_S1x128_S8000x128 v5)) bitsLt_bf16_f32) v9)
            (rowB broadcasts_S1x128_S8000x128 v13))) bitsLt_bf16_f32) v19)
          (rowB broadcasts_S1x128_S8000x128 v23))) bitsLt_bf16_f32 := by
  unfold k0_pay1
  simp only [shapeCast_self]
  rfl

/-- Entry (p, j) of the node pass's tile is `nodeRow` of row p of the node block. -/
theorem node_tile_at (v0 : Vec Ideal S8000x86 .f32) (v2 : Vec Ideal S86x128 .f32) (v5 : Vec Ideal S1x128 .f32) (v9 : Vec Ideal S128x128 .f32)
    (v13 : Vec Ideal S1x128 .f32) (v19 : Vec Ideal S128x128 .f32) (v23 : Vec Ideal S1x128 .f32) (p : Fin 8000) (j : Fin 128) :
    k0_pay1 v0 v2 v5 v9 v13 v19 v23 (ix2 p j)
      = Cert.Rows.nodeRow (fun a => v0 (ix2 p a)) (fun a i => v2 (ix2 a i)) (fun i => v5 (ix2 (0 : Fin 1) i))
          (fun a i => v9 (ix2 a i)) (fun i => v13 (ix2 (0 : Fin 1) i)) (fun a i => v19 (ix2 a i)) (fun i => v23 (ix2 (0 : Fin 1) i)) j := by
  rw [node_tile]
  unfold Cert.Rows.nodeRow
  rw [truncf_apply, reluT_at, lin_at]
  simp only [truncf_apply, reluT_at, lin_at]

/-! ## The head's tiles -/

/-- The head's first layer on a tile, narrowed to bf16 for the next product. -/
theorem first_tile (v0 v2 : Vec Ideal S5000x128 .f32) (v5 : Vec Ideal S5000x13 .f32) (v11 v14 v17 : Vec Ideal S128x128 .f32)
    (v20 : Vec Ideal S13x128 .f32) (v30 : Vec Ideal S1x128 .f32) :
    k1_pay4 v0 v2 v5 v11 v14 v17 v20 v30
      = truncf .bf16 (reluT (addf (addf (addf (addf
            (mm dot_S5000x128_S128x128_S5000x128_1_0_0_1_n_n_wf bitsLt_bf16_f32 (truncf .bf16 v0 bitsLt_bf16_f32) v11)
            (mm dot_S5000x128_S128x128_S5000x128_1_0_0_1_n_n_wf bitsLt_bf16_f32 (truncf .bf16 (subf v0 v2) bitsLt_bf16_f32) v14))
            (mm dot_S5000x128_S128x128_S5000x128_1_0_0_1_n_n_wf bitsLt_bf16_f32 (truncf .bf16 v2 bitsLt_bf16_f32) v17))
            (mm dot_S5000x13_S13x128_S5000x128_1_0_0_1_n_n_wf bitsLt_bf16_f32 (truncf .bf16 v5 bitsLt_bf16_f32) v20))
          (rowB broadcasts_S1x128_S5000x128 v30))) bitsLt_bf16_f32 := by
  unfold k1_pay4
  simp only [shapeCast_self]
  rfl

/-- The head's hidden layer on a tile, narrowed to bf16 for the two last products. -/
theorem hidden_tile (v36 : FVec Ideal S5000x128 .bf16) (v37 : Vec Ideal S128x128 .f32) (v40 : Vec Ideal S1x128 .f32) :
    k1_pay1 v36 v37 v40
      = truncf .bf16 (reluT (addf (mm dot_S5000x128_S128x128_S5000x128_1_0_0_1_n_n_wf bitsLt_bf16_f32 v36 v37)
          (rowB broadcasts_S1x128_S5000x128 v40))) bitsLt_bf16_f32 := by
  unfold k1_pay1
  simp only [shapeCast_self]
  rfl

/-- The first result's tile: the logistic function of the output layer. -/
theorem out_tile (v36 : FVec Ideal S5000x128 .bf16) (v37 : Vec Ideal S128x128 .f32) (v40 : Vec Ideal S1x128 .f32)
    (v47 : Vec Ideal S128x13 .f32) (v50 : Vec Ideal S1x13 .f32) :
    k1_pay2 v36 v37 v40 v47 v50
      = logistic (addf (mm dot_S5000x128_S128x13_S5000x13_1_0_0_1_n_n_wf bitsLt_bf16_f32 (k1_pay1 v36 v37 v40) v47)
          (rowB broadcasts_S1x13_S5000x13 v50)) := by
  unfold k1_pay2
  simp only [shapeCast_self]
  rfl

/-- The second result's tile: the attention layer. -/
theorem attn_tile (v36 : FVec Ideal S5000x128 .bf16) (v37 : Vec Ideal S128x128 .f32) (v40 : Vec Ideal S1x128 .f32)
    (v56 : Vec Ideal S128x13 .f32) (v59 : Vec Ideal S1x13 .f32) :
    k1_pay3 v36 v37 v40 v56 v59
      = addf (mm dot_S5000x128_S128x13_S5000x13_1_0_0_1_n_n_wf bitsLt_bf16_f32 (k1_pay1 v36 v37 v40) v56)
          (rowB broadcasts_S1x13_S5000x13 v59) := by
  unfold k1_pay3
  simp only [shapeCast_self]
  rfl

section Head
variable (v0 v2 : Vec Ideal S5000x128 .f32) (v5 : Vec Ideal S5000x13 .f32) (v11 v14 v17 : Vec Ideal S128x128 .f32)
  (v20 : Vec Ideal S13x128 .f32) (v30 : Vec Ideal S1x128 .f32) (v37 : Vec Ideal S128x128 .f32) (v40 : Vec Ideal S1x128 .f32)
  (W : Fin 397 → Fin 128 → Ideal .f32)
  (h0 : ∀ (k j : Fin 128), v11 (ix2 k j) = W (Cert.Rows.seg0 k) j) (h1 : ∀ (k j : Fin 128), v14 (ix2 k j) = W (Cert.Rows.seg1 k) j)
  (h2 : ∀ (k j : Fin 128), v17 (ix2 k j) = W (Cert.Rows.seg2 k) j) (h3 : ∀ (k : Fin 13) (j : Fin 128), v20 (ix2 k j) = W (Cert.Rows.seg3 k) j)

include h0 h1 h2 h3 in
/-- Entry (p, j) of the first layer's tile is `Rows.first` of row p of the three row-indexed blocks. -/
theorem first_tile_at (p : Fin 5000) (j : Fin 128) :
    k1_pay4 v0 v2 v5 v11 v14 v17 v20 v30 (ix2 p j)
      = Cert.Rows.first (fun k => v0 (ix2 p k)) (fun k => v2 (ix2 p k)) (fun k => v5 (ix2 p k)) W (fun j => v30 (ix2 (0 : Fin 1) j)) j := by
  rw [first_tile]
  unfold Cert.Rows.first
  rw [truncf_apply, reluT_at, addf_apply, addf_apply, addf_apply, addf_apply, mm_at, mm_at, mm_at, mm_at, rowB_at]
  simp only [truncf_apply, subf_apply, h0, h1, h2, h3]

include h0 h1 h2 h3 in
/-- Entry (p, j) of the hidden layer's tile. -/
theorem hidden_tile_at (p : Fin 5000) (j : Fin 128) :
    k1_pay1 (k1_pay4 v0 v2 v5 v11 v14 v17 v20 v30) v37 v40 (ix2 p j)
      = Cert.Rows.hidden (fun k => v0 (ix2 p k)) (fun k => v2 (ix2 p k)) (fun k => v5 (ix2 p k)) W (fun j => v30 (ix2 (0 : Fin 1) j))
          (fun k j => v37 (ix2 k j)) (fun j => v40 (ix2 (0 : Fin 1) j)) j := by
  rw [hidden_tile]
  unfold Cert.Rows.hidden
  rw [truncf_apply, reluT_at, lin_at]
  simp only [first_tile_at v0 v2 v5 v11 v14 v17 v20 v30 W h0 h1 h2 h3]

include h0 h1 h2 h3 in
/-- Entry (p, q) of the first result's tile is `Rows.outRow` of row p. -/
theorem out_tile_at (v47 : Vec Ideal S128x13 .f32) (v50 : Vec Ideal S1x13 .f32) (p : Fin 5000) (q : Fin 13) :
    k1_pay2 (k1_pay4 v0 v2 v5 v11 v14 v17 v20 v30) v37 v40 v47 v50 (ix2 p q)
      = Cert.Rows.outRow (fun k => v0 (ix2 p k)) (fun k => v2 (ix2 p k)) (fun k => v5 (ix2 p k)) W (fun j => v30 (ix2 (0 : Fin 1) j))
          (fun k j => v37 (ix2 k j)) (fun j => v40 (ix2 (0 : Fin 1) j)) (fun k q => v47 (ix2 k q)) (fun q => v50 (ix2 (0 : Fin 1) q)) q := by
  rw [out_tile]
  unfold Cert.Rows.outRow
  refine (congrArg Ideal.logistic (lin_at dot_S5000x128_S128x13_S5000x13_1_0_0_1_n_n_wf bitsLt_bf16_f32 broadcasts_S1x13_S5000x13
    (k1_pay1 (k1_pay4 v0 v2 v5 v11 v14 v17 v20 v30) v37 v40) v47 v50 p q)).trans ?_
  simp only [hidden_tile_at v0 v2 v5 v11 v14 v17 v20 v30 v37 v40 W h0 h1 h2 h3]

include h0 h1 h2 h3 in
/-- Entry (p, q) of the second result's tile is `Rows.attnRow` of row p. -/
theorem attn_tile_at (v56 : Vec Ideal S128x13 .f32) (v59 : Vec Ideal S1x13 .f32) (p : Fin 5000) (q : Fin 13) :
    k1_pay3 (k1_pay4 v0 v2 v5 v11 v14 v17 v20 v30) v37 v40 v56 v59 (ix2 p q)
      = Cert.Rows.attnRow (fun k => v0 (ix2 p k)) (fun k => v2 (ix2 p k)) (fun k => v5 (ix2 p k)) W (fun j => v30 (ix2 (0 : Fin 1) j))
          (fun k j => v37 (ix2 k j)) (fun j => v40 (ix2 (0 : Fin 1) j)) (fun k q => v56 (ix2 k q)) (fun q => v59 (ix2 (0 : Fin 1) q)) q := by
  rw [attn_tile]
  unfold Cert.Rows.attnRow
  rw [lin_at]
  simp only [hidden_tile_at v0 v2 v5 v11 v14 v17 v20 v30 v37 v40 W h0 h1 h2 h3]

end Head

end Cert.KernelIdeal.Tiles

end
-- ==== Proof.NodeArr.lean ====
/-
  The node pass's result array as one function of the arrays the region finds.

  The grid has 100 points; point t stages rows 8000·t … 8000·t + 7999 of the node table, the whole weight matrices
  and the one-row biases, and writes back rows 8000·t … of the result. What it writes at row p, column j of its
  block is `Rows.nodeRow` of row 8000·t + p of the node table (the tile lemma), so every block is the restriction
  of ONE whole-array function, `nodeArr`; the 100 blocks cover the 800000 rows (row r is in block r / 8000), hence
  the array ends holding `nodeArr`.
-/
import proofs.«108183_j29016799052510_1_alg».proof.Proof.Gen.KernelIdeal.Frame
import proofs.«108183_j29016799052510_1_alg».proof.Proof.Tiles
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps of region 0, decided over its 100 points: the node table's and the result's blocks move
    with the point along the rows, every other window stays at block (0, 0). -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = t.val
    ∧ win0_7.index t (1 : Fin 2) = 0 :=
  (by decide +kernel : ∀ t : Fin grid0.N, _)

/-- Window 0's block at point t is rows 8000·t … of its array. -/
theorem blk0_0_at (c : Dev nD) (t : Fin cfg0.N) (p : Fin 8000) (r : Fin 800000) (hr : r.val = 8000 * t.val + p.val) (k : Fin 86) :
    (iblk0 V c 0 t : Vec Ideal S8000x86 .f32) (ix2 p k) = (V c main_arg0 : _ → Ideal .f32) (ix2 r k) := by
  unfold iblk0
  rw [View.read_apply]
  show V c main_arg0 _ = V c main_arg0 _
  refine congrArg _ (funext fun ax => Fin.ext ?_)
  have e := idx0 t
  match ax with
  | ⟨0, _⟩ => show win0_0.index t (0 : Fin 2) * 8000 + 1 * p.val = r.val; rw [e.1, hr]; omega
  | ⟨1, _⟩ => show win0_0.index t (1 : Fin 2) * 86 + 1 * k.val = k.val; rw [e.2.1]; omega

/-- Window 1's block at every point is its whole array. -/
theorem blk0_1_at (c : Dev nD) (t : Fin cfg0.N) (a : Fin 86) (b : Fin 128) :
    (iblk0 V c 1 t : Vec Ideal S86x128 .f32) (ix2 a b) = (V c main_arg7 : _ → Ideal .f32) (ix2 a b) := by
  unfold iblk0
  rw [View.read_apply]
  show V c main_arg7 _ = V c main_arg7 _
  refine congrArg _ (funext fun ax => Fin.ext ?_)
  have e := idx0 t
  match ax with
  | ⟨0, _⟩ => show win0_1.index t (0 : Fin 2) * 86 + 1 * a.val = a.val; rw [e.2.2.1]; omega
  | ⟨1, _⟩ => show win0_1.index t (1 : Fin 2) * 128 + 1 * b.val = b.val; rw [e.2.2.2.1]; omega

/-- Window 2's block at every point is its whole array. -/
theorem blk0_2_at (c : Dev nD) (t : Fin cfg0.N) (a : Fin 1) (b : Fin 128) :
    (iblk0 V c 2 t : Vec Ideal S1x128 .f32) (ix2 a b) = (V c main_v12 : _ → Ideal .f32) (ix2 a b) := by
  unfold iblk0
  rw [View.read_apply]
  show V c main_v12 _ = V c main_v12 _
  refine congrArg _ (funext fun ax => Fin.ext ?_)
  have e := idx0 t
  match ax with
  | ⟨0, _⟩ => show win0_2.index t (0 : Fin 2) * 1 + 1 * a.val = a.val; rw [e.2.2.2.2.1]; omega
  | ⟨1, _⟩ => show win0_2.index t (1 : Fin 2) * 128 + 1 * b.val = b.val; rw [e.2.2.2.2.2.1]; omega

/-- Window 3's block at every point is its whole array. -/
theorem blk0_3_at (c : Dev nD) (t : Fin cfg0.N) (a : Fin 128) (b : Fin 128) :
    (iblk0 V c 3 t : Vec Ideal S128x128 .f32) (ix2 a b) = (V c main_arg9 : _ → Ideal .f32) (ix2 a b) := by
  unfold iblk0
  rw [View.read_apply]
  show V c main_arg9 _ = V c main_arg9 _
  refine congrArg _ (funext fun ax => Fin.ext ?_)
  have e := idx0 t
  match ax with
  | ⟨0, _⟩ => show win0_3.index t (0 : Fin 2) * 128 + 1 * a.val = a.val; rw [e.2.2.2.2.2.2.1]; omega
  | ⟨1, _⟩ => show win0_3.index t (1 : Fin 2) * 128 + 1 * b.val = b.val; rw [e.2.2.2.2.2.2.2.1]; omega

/-- Window 4's block at every point is its whole array. -/
theorem blk0_4_at (c : Dev nD) (t : Fin cfg0.N) (a : Fin 1) (b : Fin 128) :
    (iblk0 V c 4 t : Vec Ideal S1x128 .f32) (ix2 a b) = (V c main_v13 : _ → Ideal .f32) (ix2 a b) := by
  unfold iblk0
  rw [View.read_apply]
  show V c main_v13 _ = V c main_v13 _
  refine congrArg _ (funext fun ax => Fin.ext ?_)
  have e := idx0 t
  match ax with
  | ⟨0, _⟩ => show win0_4.index t (0 : Fin 2) * 1 + 1 * a.val = a.val; rw [e.2.2.2.2.2.2.2.2.1]; omega
  | ⟨1, _⟩ => show win0_4.index t (1 : Fin 2) * 128 + 1 * b.val = b.val; rw [e.2.2.2.2.2.2.2.2.2.1]; omega

/-- Window 5's block at every point is its whole array. -/
theorem blk0_5_at (c : Dev nD) (t : Fin cfg0.N) (a : Fin 128) (b : Fin 128) :
    (iblk0 V c 5 t : Vec Ideal S128x128 .f32) (ix2 a b) = (V c main_arg11 : _ → Ideal .f32) (ix2 a b) := by
  unfold iblk0
  rw [View.read_apply]
  show V c main_arg11 _ = V c main_arg11 _
  refine congrArg _ (funext fun ax => Fin.ext ?_)
  have e := idx0 t
  match ax with
  | ⟨0, _⟩ => show win0_5.index t (0 : Fin 2) * 128 + 1 * a.val = a.val; rw [e.2.2.2.2.2.2.2.2.2.2.1]; omega
  | ⟨1, _⟩ => show win0_5.index t (1 : Fin 2) * 128 + 1 * b.val = b.val; rw [e.2.2.2.2.2.2.2.2.2.2.2.1]; omega

/-- Window 6's block at every point is its whole array. -/
theorem blk0_6_at (c : Dev nD) (t : Fin cfg0.N) (a : Fin 1) (b : Fin 128) :
    (iblk0 V c 6 t : Vec Ideal S1x128 .f32) (ix2 a b) = (V c main_v14 : _ → Ideal .f32) (ix2 a b) := by
  unfold iblk0
  rw [View.read_apply]
  show V c main_v14 _ = V c main_v14 _
  refine congrArg _ (funext fun ax => Fin.ext ?_)
  have e := idx0 t
  match ax with
  | ⟨0, _⟩ => show win0_6.index t (0 : Fin 2) * 1 + 1 * a.val = a.val; rw [e.2.2.2.2.2.2.2.2.2.2.2.2.1]; omega
  | ⟨1, _⟩ => show win0_6.index t (1 : Fin 2) * 128 + 1 * b.val = b.val; rw [e.2.2.2.2.2.2.2.2.2.2.2.2.2.1]; omega

/-- The node pass's result: row r, column j is `Rows.nodeRow` of row r of the node table. -/
def nodeArr (c : Dev nD) : Buf (Elt Ideal) ((c : Thread nD τ).loc main_v15) := fun i =>
  Cert.Rows.nodeRow (fun a => (V c main_arg0 : _ → Ideal .f32) (ix2 (i 0) a)) (fun a j => (V c main_arg7 : _ → Ideal .f32) (ix2 a j))
    (fun j => (V c main_v12 : _ → Ideal .f32) (ix2 (0 : Fin 1) j)) (fun a j => (V c main_arg9 : _ → Ideal .f32) (ix2 a j))
    (fun j => (V c main_v13 : _ → Ideal .f32) (ix2 (0 : Fin 1) j)) (fun a j => (V c main_arg11 : _ → Ideal .f32) (ix2 a j))
    (fun j => (V c main_v14 : _ → Ideal .f32) (ix2 (0 : Fin 1) j)) (i 1)

/-- What point t writes back is block t of `nodeArr`. -/
theorem node_flushed (c : Dev nD) (t : Fin cfg0.N) :
    (dat0 V c).flushed 7 t = ((cfg0.win 7).blk t).view.read (Elt Ideal) (nodeArr V c) := by
  show (cfg0.win 7).cut (grid0.coords t) ((dat0 V c).after 7 t) = _
  rw [after0_7]
  unfold out0_7
  rw [View.canon_unit_zero hz]
  simp only [View.ld_unit_zero (S := S8000x86) hz, View.ld_unit_zero (S := S86x128) hz, View.ld_unit_zero (S := S1x128) hz,
    View.ld_unit_zero (S := S128x128) hz]
  funext j
  obtain ⟨p, q, rfl⟩ : ∃ (p : Fin 8000) (q : Fin 128), j = ix2 p q := ⟨j 0, j 1, eq_ix2 j⟩
  have hN : cfg0.N = 100 := N_0
  have ht : t.val < 100 := hN ▸ t.isLt
  have hp : p.val < 8000 := p.isLt
  let r : Fin 800000 := ⟨8000 * t.val + p.val, by omega⟩
  have e := idx0 t
  have he : ((cfg0.win 7).blk t).view.emb (ix2 p q) = (ix2 r q : S800000x128.Idx) := by
    funext ax; apply Fin.ext
    match ax with
    | ⟨0, _⟩ => show win0_7.index t (0 : Fin 2) * 8000 + 1 * p.val = 8000 * t.val + p.val; rw [e.2.2.2.2.2.2.2.2.2.2.2.2.2.2.1]; omega
    | ⟨1, _⟩ => show win0_7.index t (1 : Fin 2) * 128 + 1 * q.val = q.val; rw [e.2.2.2.2.2.2.2.2.2.2.2.2.2.2.2]; omega
  rw [View.read_apply, he]
  refine (Cert.KernelIdeal.Tiles.node_tile_at (iblk0 V c 0 t) (iblk0 V c 1 t) (iblk0 V c 2 t) (iblk0 V c 3 t) (iblk0 V c 4 t) (iblk0 V c 5 t) (iblk0 V c 6 t) p q).trans ?_
  simp only [blk0_0_at V c t p r rfl, blk0_1_at V c t, blk0_2_at V c t, blk0_3_at V c t, blk0_4_at V c t, blk0_5_at V c t, blk0_6_at V c t]
  rfl

/-- An index of the result is in point t's block iff each coordinate is in the block's range on its axis. -/
theorem node_mem_blk (t : Fin cfg0.N) (i : S800000x128.Idx) :
    i ∈ ((cfg0.win 7).blk t).view.set ↔ ∀ a : Fin 2, win0_7.index t a * S8000x128.size a ≤ (i a).val ∧ (i a).val < win0_7.index t a * S8000x128.size a + S8000x128.size a := by
  show i ∈ ((View.whole main_v15).slice (win0_7.rect t)).set ↔ _
  rw [View.set_slice_whole, Rect.mem_set_unit]
  exact Iff.rfl

/-- The blocks cover the result: row r is in the block of point r / 8000. -/
theorem node_cover (i : S800000x128.Idx) : ∃ t : Fin cfg0.N, (cfg0.win 7).flush t = true ∧ i ∈ ((cfg0.win 7).blk t).view.set := by
  have hN : cfg0.N = 100 := N_0
  have hi0 : (i 0).val < 800000 := (i 0).isLt
  have hi1 : (i 1).val < 128 := (i 1).isLt
  let t : Fin cfg0.N := ⟨(i 0).val / 8000, by rw [hN]; omega⟩
  have e := idx0 t
  refine ⟨t, flush0_7 t, ?_⟩
  rw [node_mem_blk]
  intro a
  match a with
  | ⟨0, _⟩ => show win0_7.index t (0 : Fin 2) * 8000 ≤ (i 0).val ∧ (i 0).val < win0_7.index t (0 : Fin 2) * 8000 + 8000; rw [e.2.2.2.2.2.2.2.2.2.2.2.2.2.2.1]; show (i 0).val / 8000 * 8000 ≤ (i 0).val ∧ (i 0).val < (i 0).val / 8000 * 8000 + 8000; omega
  | ⟨1, _⟩ => show win0_7.index t (1 : Fin 2) * 128 ≤ (i 1).val ∧ (i 1).val < win0_7.index t (1 : Fin 2) * 128 + 128; rw [e.2.2.2.2.2.2.2.2.2.2.2.2.2.2.2]; omega

/-- The node pass's result array after the region: `nodeArr` of the arrays the region found. -/
theorem node_final (c : Dev nD) : (dat0 V c).arrAt 7 cfg0.N = nodeArr V c :=
  (dat0 V c).arrAt_eq_of_cover 7 (nodeArr V c) (fun t _ => node_flushed V c t) (node_cover)

end Cert.KernelIdeal.Hand

end
-- ==== Proof.HeadArr.lean ====
/-
  The head's two result arrays as functions of the arrays the region finds.

  The grid has 20 points; point t stages rows 5000·t … 5000·t + 4999 of the root rows, the pooled rows and the
  one-hot rows, the whole weight blocks and one-row biases, and writes back rows 5000·t … of both results. What it
  writes at row p, column q of a result's block is `Rows.outRow` (or `Rows.attnRow`) of row 5000·t + p of the three
  row-indexed arrays (the tile lemmas), so every block is the restriction of one whole-array function; the 20 blocks
  cover the 100000 rows (row r is in block r / 5000). The first layer's four weight blocks are the row ranges of one
  matrix W of 397 rows, each device's own (hypotheses h0 … h3: the host slices, read where this is used).
-/
import proofs.«108183_j29016799052510_1_alg».proof.Proof.Gen.KernelIdeal.Frame
import proofs.«108183_j29016799052510_1_alg».proof.Proof.Tiles
import proofs.«108183_j29016799052510_1_alg».proof.Proof.NodeArr
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps of region 1, decided over its 20 points: the three row-indexed inputs' and the two
    results' blocks move with the point along the rows, every other window stays at block (0, 0). -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (0 : Fin 2) = 0
    ∧ win1_11.index t (1 : Fin 2) = 0
    ∧ win1_12.index t (0 : Fin 2) = 0
    ∧ win1_12.index t (1 : Fin 2) = 0
    ∧ win1_13.index t (0 : Fin 2) = 0
    ∧ win1_13.index t (1 : Fin 2) = 0
    ∧ win1_14.index t (0 : Fin 2) = t.val
    ∧ win1_14.index t (1 : Fin 2) = 0
    ∧ win1_15.index t (0 : Fin 2) = t.val
    ∧ win1_15.index t (1 : Fin 2) = 0 :=
  (by decide +kernel : ∀ t : Fin grid1.N, _)

/-- Window 0's block at point t is rows 5000·t … of its array. -/
theorem blk1_0_at (c : Dev nD) (t : Fin cfg1.N) (p : Fin 5000) (r : Fin 100000) (hr : r.val = 5000 * t.val + p.val) (k : Fin 128) :
    (iblk1 V c 0 t : Vec Ideal S5000x128 .f32) (ix2 p k) = (V c main_v11 : _ → Ideal .f32) (ix2 r k) := by
  unfold iblk1
  rw [View.read_apply]
  show V c main_v11 _ = V c main_v11 _
  refine congrArg _ (funext fun ax => Fin.ext ?_)
  have e := idx1 t
  match ax with
  | ⟨0, _⟩ => show win1_0.index t (0 : Fin 2) * 5000 + 1 * p.val = r.val; rw [e.1, hr]; omega
  | ⟨1, _⟩ => show win1_0.index t (1 : Fin 2) * 128 + 1 * k.val = k.val; rw [e.2.1]; omega

/-- Window 1's block at point t is rows 5000·t … of its array. -/
theorem blk1_1_at (c : Dev nD) (t : Fin cfg1.N) (p : Fin 5000) (r : Fin 100000) (hr : r.val = 5000 * t.val + p.val) (k : Fin 128) :
    (iblk1 V c 1 t : Vec Ideal S5000x128 .f32) (ix2 p k) = (V c main_v28 : _ → Ideal .f32) (ix2 r k) := by
  unfold iblk1
  rw [View.read_apply]
  show V c main_v28 _ = V c main_v28 _
  refine congrArg _ (funext fun ax => Fin.ext ?_)
  have e := idx1 t
  match ax with
  | ⟨0, _⟩ => show win1_1.index t (0 : Fin 2) * 5000 + 1 * p.val = r.val; rw [e.2.2.1, hr]; omega
  | ⟨1, _⟩ => show win1_1.index t (1 : Fin 2) * 128 + 1 * k.val = k.val; rw [e.2.2.2.1]; omega

/-- Window 2's block at point t is rows 5000·t … of its array. -/
theorem blk1_2_at (c : Dev nD) (t : Fin cfg1.N) (p : Fin 5000) (r : Fin 100000) (hr : r.val = 5000 * t.val + p.val) (k : Fin 13) :
    (iblk1 V c 2 t : Vec Ideal S5000x13 .f32) (ix2 p k) = (V c main_v30 : _ → Ideal .f32) (ix2 r k) := by
  unfold iblk1
  rw [View.read_apply]
  show V c main_v30 _ = V c main_v30 _
  refine congrArg _ (funext fun ax => Fin.ext ?_)
  have e := idx1 t
  match ax with
  | ⟨0, _⟩ => show win1_2.index t (0 : Fin 2) * 5000 + 1 * p.val = r.val; rw [e.2.2.2.2.1, hr]; omega
  | ⟨1, _⟩ => show win1_2.index t (1 : Fin 2) * 13 + 1 * k.val = k.val; rw [e.2.2.2.2.2.1]; omega

/-- Window 3's block at every point is its whole array. -/
theorem blk1_3_at (c : Dev nD) (t : Fin cfg1.N) (a : Fin 128) (b : Fin 128) :
    (iblk1 V c 3 t : Vec Ideal S128x128 .f32) (ix2 a b) = (V c main_v31 : _ → Ideal .f32) (ix2 a b) := by
  unfold iblk1
  rw [View.read_apply]
  show V c main_v31 _ = V c main_v31 _
  refine congrArg _ (funext fun ax => Fin.ext ?_)
  have e := idx1 t
  match ax with
  | ⟨0, _⟩ => show win1_3.index t (0 : Fin 2) * 128 + 1 * a.val = a.val; rw [e.2.2.2.2.2.2.1]; omega
  | ⟨1, _⟩ => show win1_3.index t (1 : Fin 2) * 128 + 1 * b.val = b.val; rw [e.2.2.2.2.2.2.2.1]; omega

/-- Window 4's block at every point is its whole array. -/
theorem blk1_4_at (c : Dev nD) (t : Fin cfg1.N) (a : Fin 128) (b : Fin 128) :
    (iblk1 V c 4 t : Vec Ideal S128x128 .f32) (ix2 a b) = (V c main_v32 : _ → Ideal .f32) (ix2 a b) := by
  unfold iblk1
  rw [View.read_apply]
  show V c main_v32 _ = V c main_v32 _
  refine congrArg _ (funext fun ax => Fin.ext ?_)
  have e := idx1 t
  match ax with
  | ⟨0, _⟩ => show win1_4.index t (0 : Fin 2) * 128 + 1 * a.val = a.val; rw [e.2.2.2.2.2.2.2.2.1]; omega
  | ⟨1, _⟩ => show win1_4.index t (1 : Fin 2) * 128 + 1 * b.val = b.val; rw [e.2.2.2.2.2.2.2.2.2.1]; omega

/-- Window 5's block at every point is its whole array. -/
theorem blk1_5_at (c : Dev nD) (t : Fin cfg1.N) (a : Fin 128) (b : Fin 128) :
    (iblk1 V c 5 t : Vec Ideal S128x128 .f32) (ix2 a b) = (V c main_v33 : _ → Ideal .f32) (ix2 a b) := by
  unfold iblk1
  rw [View.read_apply]
  show V c main_v33 _ = V c main_v33 _
  refine congrArg _ (funext fun ax => Fin.ext ?_)
  have e := idx1 t
  match ax with
  | ⟨0, _⟩ => show win1_5.index t (0 : Fin 2) * 128 + 1 * a.val = a.val; rw [e.2.2.2.2.2.2.2.2.2.2.1]; omega
  | ⟨1, _⟩ => show win1_5.index t (1 : Fin 2) * 128 + 1 * b.val = b.val; rw [e.2.2.2.2.2.2.2.2.2.2.2.1]; omega

/-- Window 6's block at every point is its whole array. -/
theorem blk1_6_at (c : Dev nD) (t : Fin cfg1.N) (a : Fin 13) (b : Fin 128) :
    (iblk1 V c 6 t : Vec Ideal S13x128 .f32) (ix2 a b) = (V c main_v34 : _ → Ideal .f32) (ix2 a b) := by
  unfold iblk1
  rw [View.read_apply]
  show V c main_v34 _ = V c main_v34 _
  refine congrArg _ (funext fun ax => Fin.ext ?_)
  have e := idx1 t
  match ax with
  | ⟨0, _⟩ => show win1_6.index t (0 : Fin 2) * 13 + 1 * a.val = a.val; rw [e.2.2.2.2.2.2.2.2.2.2.2.2.1]; omega
  | ⟨1, _⟩ => show win1_6.index t (1 : Fin 2) * 128 + 1 * b.val = b.val; rw [e.2.2.2.2.2.2.2.2.2.2.2.2.2.1]; omega

/-- Window 7's block at every point is its whole array. -/
theorem blk1_7_at (c : Dev nD) (t : Fin cfg1.N) (a : Fin 1) (b : Fin 128) :
    (iblk1 V c 7 t : Vec Ideal S1x128 .f32) (ix2 a b) = (V c main_v35 : _ → Ideal .f32) (ix2 a b) := by
  unfold iblk1
  rw [View.read_apply]
  show V c main_v35 _ = V c main_v35 _
  refine congrArg _ (funext fun ax => Fin.ext ?_)
  have e := idx1 t
  match ax with
  | ⟨0, _⟩ => show win1_7.index t (0 : Fin 2) * 1 + 1 * a.val = a.val; rw [e.2.2.2.2.2.2.2.2.2.2.2.2.2.2.1]; omega
  | ⟨1, _⟩ => show win1_7.index t (1 : Fin 2) * 128 + 1 * b.val = b.val; rw [e.2.2.2.2.2.2.2.2.2.2.2.2.2.2.2.1]; omega

/-- Window 8's block at every point is its whole array. -/
theorem blk1_8_at (c : Dev nD) (t : Fin cfg1.N) (a : Fin 128) (b : Fin 128) :
    (iblk1 V c 8 t : Vec Ideal S128x128 .f32) (ix2 a b) = (V c main_arg15 : _ → Ideal .f32) (ix2 a b) := by
  unfold iblk1
  rw [View.read_apply]
  show V c main_arg15 _ = V c main_arg15 _
  refine congrArg _ (funext fun ax => Fin.ext ?_)
  have e := idx1 t
  match ax with
  | ⟨0, _⟩ => show win1_8.index t (0 : Fin 2) * 128 + 1 * a.val = a.val; rw [e.2.2.2.2.2.2.2.2.2.2.2.2.2.2.2.2.1]; omega
  | ⟨1, _⟩ => show win1_8.index t (1 : Fin 2) * 128 + 1 * b.val = b.val; rw [e.2.2.2.2.2.2.2.2.2.2.2.2.2.2.2.2.2.1]; omega

/-- Window 9's block at every point is its whole array. -/
theorem blk1_9_at (c : Dev nD) (t : Fin cfg1.N) (a : Fin 1) (b : Fin 128) :
    (iblk1 V c 9 t : Vec Ideal S1x128 .f32) (ix2 a b) = (V c main_v36 : _ → Ideal .f32) (ix2 a b) := by
  unfold iblk1
  rw [View.read_apply]
  show V c main_v36 _ = V c main_v36 _
  refine congrArg _ (funext fun ax => Fin.ext ?_)
  have e := idx1 t
  match ax with
  | ⟨0, _⟩ => show win1_9.index t (0 : Fin 2) * 1 + 1 * a.val = a.val; rw [e.2.2.2.2.2.2.2.2.2.2.2.2.2.2.2.2.2.2.1]; omega
  | ⟨1, _⟩ => show win1_9.index t (1 : Fin 2) * 128 + 1 * b.val = b.val; rw [e.2.2.2.2.2.2.2.2.2.2.2.2.2.2.2.2.2.2.2.1]; omega

/-- Window 10's block at every point is its whole array. -/
theorem blk1_10_at (c : Dev nD) (t : Fin cfg1.N) (a : Fin 128) (b : Fin 13) :
    (iblk1 V c 10 t : Vec Ideal S128x13 .f32) (ix2 a b) = (V c main_arg17 : _ → Ideal .f32) (ix2 a b) := by
  unfold iblk1
  rw [View.read_apply]
  show V c main_arg17 _ = V c main_arg17 _
  refine congrArg _ (funext fun ax => Fin.ext ?_)
  have e := idx1 t
  match ax with
  | ⟨0, _⟩ => show win1_10.index t (0 : Fin 2) * 128 + 1 * a.val = a.val; rw [e.2.2.2.2.2.2.2.2.2.2.2.2.2.2.2.2.2.2.2.2.1]; omega
  | ⟨1, _⟩ => show win1_10.index t (1 : Fin 2) * 13 + 1 * b.val = b.val; rw [e.2.2.2.2.2.2.2.2.2.2.2.2.2.2.2.2.2.2.2.2.2.1]; omega

/-- Window 11's block at every point is its whole array. -/
theorem blk1_11_at (c : Dev nD) (t : Fin cfg1.N) (a : Fin 1) (b : Fin 13) :
    (iblk1 V c 11 t : Vec Ideal S1x13 .f32) (ix2 a b) = (V c main_v37 : _ → Ideal .f32) (ix2 a b) := by
  unfold iblk1
  rw [View.read_apply]
  show V c main_v37 _ = V c main_v37 _
  refine congrArg _ (funext fun ax => Fin.ext ?_)
  have e := idx1 t
  match ax with
  | ⟨0, _⟩ => show win1_11.index t (0 : Fin 2) * 1 + 1 * a.val = a.val; rw [e.2.2.2.2.2.2.2.2.2.2.2.2.2.2.2.2.2.2.2.2.2.2.1]; omega
  | ⟨1, _⟩ => show win1_11.index t (1 : Fin 2) * 13 + 1 * b.val = b.val; rw [e.2.2.2.2.2.2.2.2.2.2.2.2.2.2.2.2.2.2.2.2.2.2.2.1]; omega

/-- Window 12's block at every point is its whole array. -/
theorem blk1_12_at (c : Dev nD) (t : Fin cfg1.N) (a : Fin 128) (b : Fin 13) :
    (iblk1 V c 12 t : Vec Ideal S128x13 .f32) (ix2 a b) = (V c main_arg19 : _ → Ideal .f32) (ix2 a b) := by
  unfold iblk1
  rw [View.read_apply]
  show V c main_arg19 _ = V c main_arg19 _
  refine congrArg _ (funext fun ax => Fin.ext ?_)
  have e := idx1 t
  match ax with
  | ⟨0, _⟩ => show win1_12.index t (0 : Fin 2) * 128 + 1 * a.val = a.val; rw [e.2.2.2.2.2.2.2.2.2.2.2.2.2.2.2.2.2.2.2.2.2.2.2.2.1]; omega
  | ⟨1, _⟩ => show win1_12.index t (1 : Fin 2) * 13 + 1 * b.val = b.val; rw [e.2.2.2.2.2.2.2.2.2.2.2.2.2.2.2.2.2.2.2.2.2.2.2.2.2.1]; omega

/-- Window 13's block at every point is its whole array. -/
theorem blk1_13_at (c : Dev nD) (t : Fin cfg1.N) (a : Fin 1) (b : Fin 13) :
    (iblk1 V c 13 t : Vec Ideal S1x13 .f32) (ix2 a b) = (V c main_v38 : _ → Ideal .f32) (ix2 a b) := by
  unfold iblk1
  rw [View.read_apply]
  show V c main_v38 _ = V c main_v38 _
  refine congrArg _ (funext fun ax => Fin.ext ?_)
  have e := idx1 t
  match ax with
  | ⟨0, _⟩ => show win1_13.index t (0 : Fin 2) * 1 + 1 * a.val = a.val; rw [e.2.2.2.2.2.2.2.2.2.2.2.2.2.2.2.2.2.2.2.2.2.2.2.2.2.2.1]; omega
  | ⟨1, _⟩ => show win1_13.index t (1 : Fin 2) * 13 + 1 * b.val = b.val; rw [e.2.2.2.2.2.2.2.2.2.2.2.2.2.2.2.2.2.2.2.2.2.2.2.2.2.2.2.1]; omega

variable (W : Dev nD → Fin 397 → Fin 128 → Ideal .f32)

/-- The first result: row r is `Rows.outRow` of row r of the root rows, the pooled rows and the one-hot rows. -/
def outArr (c : Dev nD) : Buf (Elt Ideal) ((c : Thread nD τ).loc main_v39_0) := fun i =>
  Cert.Rows.outRow (fun k => (V c main_v11 : _ → Ideal .f32) (ix2 (i 0) k)) (fun k => (V c main_v28 : _ → Ideal .f32) (ix2 (i 0) k))
    (fun k => (V c main_v30 : _ → Ideal .f32) (ix2 (i 0) k)) (W c) (fun j => (V c main_v35 : _ → Ideal .f32) (ix2 (0 : Fin 1) j))
    (fun k j => (V c main_arg15 : _ → Ideal .f32) (ix2 k j)) (fun j => (V c main_v36 : _ → Ideal .f32) (ix2 (0 : Fin 1) j))
    (fun k q => (V c main_arg17 : _ → Ideal .f32) (ix2 k q)) (fun q => (V c main_v37 : _ → Ideal .f32) (ix2 (0 : Fin 1) q)) (i 1)

/-- The second result: row r is `Rows.attnRow` of the same rows. -/
def attnArr (c : Dev nD) : Buf (Elt Ideal) ((c : Thread nD τ).loc main_v39_1) := fun i =>
  Cert.Rows.attnRow (fun k => (V c main_v11 : _ → Ideal .f32) (ix2 (i 0) k)) (fun k => (V c main_v28 : _ → Ideal .f32) (ix2 (i 0) k))
    (fun k => (V c main_v30 : _ → Ideal .f32) (ix2 (i 0) k)) (W c) (fun j => (V c main_v35 : _ → Ideal .f32) (ix2 (0 : Fin 1) j))
    (fun k j => (V c main_arg15 : _ → Ideal .f32) (ix2 k j)) (fun j => (V c main_v36 : _ → Ideal .f32) (ix2 (0 : Fin 1) j))
    (fun k q => (V c main_arg19 : _ → Ideal .f32) (ix2 k q)) (fun q => (V c main_v38 : _ → Ideal .f32) (ix2 (0 : Fin 1) q)) (i 1)

variable (h0 : ∀ (c : Dev nD) (k j : Fin 128), (V c main_v31 : _ → Ideal .f32) (ix2 k j) = W c (Cert.Rows.seg0 k) j)
  (h1 : ∀ (c : Dev nD) (k j : Fin 128), (V c main_v32 : _ → Ideal .f32) (ix2 k j) = W c (Cert.Rows.seg1 k) j)
  (h2 : ∀ (c : Dev nD) (k j : Fin 128), (V c main_v33 : _ → Ideal .f32) (ix2 k j) = W c (Cert.Rows.seg2 k) j)
  (h3 : ∀ (c : Dev nD) (k : Fin 13) (j : Fin 128), (V c main_v34 : _ → Ideal .f32) (ix2 k j) = W c (Cert.Rows.seg3 k) j)

include h0 h1 h2 h3 in
/-- What point t writes back into window 14 is block t of `outArr`. -/
theorem out_flushed (c : Dev nD) (t : Fin cfg1.N) :
    (dat1 V c).flushed 14 t = ((cfg1.win 14).blk t).view.read (Elt Ideal) (outArr V W c) := by
  show (cfg1.win 14).cut (grid1.coords t) ((dat1 V c).after 14 t) = _
  rw [after1_14]
  unfold out1_14
  rw [View.canon_unit_zero hz]
  simp only [View.ld_unit_zero (S := S5000x128) hz, View.ld_unit_zero (S := S5000x13) hz, View.ld_unit_zero (S := S128x128) hz,
    View.ld_unit_zero (S := S13x128) hz, View.ld_unit_zero (S := S1x128) hz, View.ld_unit_zero (S := S128x13) hz, View.ld_unit_zero (S := S1x13) hz]
  funext j
  obtain ⟨p, q, rfl⟩ : ∃ (p : Fin 5000) (q : Fin 13), j = ix2 p q := ⟨j 0, j 1, eq_ix2 j⟩
  have hN : cfg1.N = 20 := N_1
  have ht : t.val < 20 := hN ▸ t.isLt
  have hp : p.val < 5000 := p.isLt
  let r : Fin 100000 := ⟨5000 * t.val + p.val, by omega⟩
  have e := idx1 t
  have he : ((cfg1.win 14).blk t).view.emb (ix2 p q) = (ix2 r q : S100000x13.Idx) := by
    funext ax; apply Fin.ext
    match ax with
    | ⟨0, _⟩ => show win1_14.index t (0 : Fin 2) * 5000 + 1 * p.val = 5000 * t.val + p.val; rw [e.2.2.2.2.2.2.2.2.2.2.2.2.2.2.2.2.2.2.2.2.2.2.2.2.2.2.2.2.1]; omega
    | ⟨1, _⟩ => show win1_14.index t (1 : Fin 2) * 13 + 1 * q.val = q.val; rw [e.2.2.2.2.2.2.2.2.2.2.2.2.2.2.2.2.2.2.2.2.2.2.2.2.2.2.2.2.2.1]; omega
  rw [View.read_apply, he]
  refine (Cert.KernelIdeal.Tiles.out_tile_at (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (W c)
    (fun k j => (blk1_3_at V c t k j).trans (h0 c k j)) (fun k j => (blk1_4_at V c t k j).trans (h1 c k j))
    (fun k j => (blk1_5_at V c t k j).trans (h2 c k j)) (fun k j => (blk1_6_at V c t k j).trans (h3 c k j))
    (iblk1 V c 10 t) (iblk1 V c 11 t) p q).trans ?_
  simp only [blk1_0_at V c t p r rfl, blk1_1_at V c t p r rfl, blk1_2_at V c t p r rfl, blk1_3_at V c t, blk1_4_at V c t, blk1_5_at V c t, blk1_6_at V c t, blk1_7_at V c t, blk1_8_at V c t, blk1_9_at V c t, blk1_10_at V c t, blk1_11_at V c t, blk1_12_at V c t, blk1_13_at V c t]
  rfl

/-- An index of window 14's array is in point t's block iff each coordinate is in the block's range on its axis. -/
theorem out_mem_blk (t : Fin cfg1.N) (i : S100000x13.Idx) :
    i ∈ ((cfg1.win 14).blk t).view.set ↔ ∀ a : Fin 2, win1_14.index t a * S5000x13.size a ≤ (i a).val ∧ (i a).val < win1_14.index t a * S5000x13.size a + S5000x13.size a := by
  show i ∈ ((View.whole main_v39_0).slice (win1_14.rect t)).set ↔ _
  rw [View.set_slice_whole, Rect.mem_set_unit]
  exact Iff.rfl

/-- The blocks cover the array: row r is in the block of point r / 5000. -/
theorem out_cover (i : S100000x13.Idx) : ∃ t : Fin cfg1.N, (cfg1.win 14).flush t = true ∧ i ∈ ((cfg1.win 14).blk t).view.set := by
  have hN : cfg1.N = 20 := N_1
  have hi0 : (i 0).val < 100000 := (i 0).isLt
  have hi1 : (i 1).val < 13 := (i 1).isLt
  let t : Fin cfg1.N := ⟨(i 0).val / 5000, by rw [hN]; omega⟩
  have e := idx1 t
  refine ⟨t, flush1_14 t, ?_⟩
  rw [out_mem_blk]
  intro a
  match a with
  | ⟨0, _⟩ => show win1_14.index t (0 : Fin 2) * 5000 ≤ (i 0).val ∧ (i 0).val < win1_14.index t (0 : Fin 2) * 5000 + 5000; rw [e.2.2.2.2.2.2.2.2.2.2.2.2.2.2.2.2.2.2.2.2.2.2.2.2.2.2.2.2.1]; show (i 0).val / 5000 * 5000 ≤ (i 0).val ∧ (i 0).val < (i 0).val / 5000 * 5000 + 5000; omega
  | ⟨1, _⟩ => show win1_14.index t (1 : Fin 2) * 13 ≤ (i 1).val ∧ (i 1).val < win1_14.index t (1 : Fin 2) * 13 + 13; rw [e.2.2.2.2.2.2.2.2.2.2.2.2.2.2.2.2.2.2.2.2.2.2.2.2.2.2.2.2.2.1]; omega

include h0 h1 h2 h3 in
/-- Window 14's array after the region. -/
theorem out_final (c : Dev nD) : (dat1 V c).arrAt 14 cfg1.N = outArr V W c :=
  (dat1 V c).arrAt_eq_of_cover 14 (outArr V W c) (fun t _ => out_flushed V W h0 h1 h2 h3 c t) (out_cover)

include h0 h1 h2 h3 in
/-- What point t writes back into window 15 is block t of `attnArr`. -/
theorem attn_flushed (c : Dev nD) (t : Fin cfg1.N) :
    (dat1 V c).flushed 15 t = ((cfg1.win 15).blk t).view.read (Elt Ideal) (attnArr V W c) := by
  show (cfg1.win 15).cut (grid1.coords t) ((dat1 V c).after 15 t) = _
  rw [after1_15]
  unfold out1_15
  rw [View.canon_unit_zero hz]
  simp only [View.ld_unit_zero (S := S5000x128) hz, View.ld_unit_zero (S := S5000x13) hz, View.ld_unit_zero (S := S128x128) hz,
    View.ld_unit_zero (S := S13x128) hz, View.ld_unit_zero (S := S1x128) hz, View.ld_unit_zero (S := S128x13) hz, View.ld_unit_zero (S := S1x13) hz]
  funext j
  obtain ⟨p, q, rfl⟩ : ∃ (p : Fin 5000) (q : Fin 13), j = ix2 p q := ⟨j 0, j 1, eq_ix2 j⟩
  have hN : cfg1.N = 20 := N_1
  have ht : t.val < 20 := hN ▸ t.isLt
  have hp : p.val < 5000 := p.isLt
  let r : Fin 100000 := ⟨5000 * t.val + p.val, by omega⟩
  have e := idx1 t
  have he : ((cfg1.win 15).blk t).view.emb (ix2 p q) = (ix2 r q : S100000x13.Idx) := by
    funext ax; apply Fin.ext
    match ax with
    | ⟨0, _⟩ => show win1_15.index t (0 : Fin 2) * 5000 + 1 * p.val = 5000 * t.val + p.val; rw [e.2.2.2.2.2.2.2.2.2.2.2.2.2.2.2.2.2.2.2.2.2.2.2.2.2.2.2.2.2.2.1]; omega
    | ⟨1, _⟩ => show win1_15.index t (1 : Fin 2) * 13 + 1 * q.val = q.val; rw [e.2.2.2.2.2.2.2.2.2.2.2.2.2.2.2.2.2.2.2.2.2.2.2.2.2.2.2.2.2.2.2]; omega
  rw [View.read_apply, he]
  refine (Cert.KernelIdeal.Tiles.attn_tile_at (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (W c)
    (fun k j => (blk1_3_at V c t k j).trans (h0 c k j)) (fun k j => (blk1_4_at V c t k j).trans (h1 c k j))
    (fun k j => (blk1_5_at V c t k j).trans (h2 c k j)) (fun k j => (blk1_6_at V c t k j).trans (h3 c k j))
    (iblk1 V c 12 t) (iblk1 V c 13 t) p q).trans ?_
  simp only [blk1_0_at V c t p r rfl, blk1_1_at V c t p r rfl, blk1_2_at V c t p r rfl, blk1_3_at V c t, blk1_4_at V c t, blk1_5_at V c t, blk1_6_at V c t, blk1_7_at V c t, blk1_8_at V c t, blk1_9_at V c t, blk1_10_at V c t, blk1_11_at V c t, blk1_12_at V c t, blk1_13_at V c t]
  rfl

/-- An index of window 15's array is in point t's block iff each coordinate is in the block's range on its axis. -/
theorem attn_mem_blk (t : Fin cfg1.N) (i : S100000x13.Idx) :
    i ∈ ((cfg1.win 15).blk t).view.set ↔ ∀ a : Fin 2, win1_15.index t a * S5000x13.size a ≤ (i a).val ∧ (i a).val < win1_15.index t a * S5000x13.size a + S5000x13.size a := by
  show i ∈ ((View.whole main_v39_1).slice (win1_15.rect t)).set ↔ _
  rw [View.set_slice_whole, Rect.mem_set_unit]
  exact Iff.rfl

/-- The blocks cover the array: row r is in the block of point r / 5000. -/
theorem attn_cover (i : S100000x13.Idx) : ∃ t : Fin cfg1.N, (cfg1.win 15).flush t = true ∧ i ∈ ((cfg1.win 15).blk t).view.set := by
  have hN : cfg1.N = 20 := N_1
  have hi0 : (i 0).val < 100000 := (i 0).isLt
  have hi1 : (i 1).val < 13 := (i 1).isLt
  let t : Fin cfg1.N := ⟨(i 0).val / 5000, by rw [hN]; omega⟩
  have e := idx1 t
  refine ⟨t, flush1_15 t, ?_⟩
  rw [attn_mem_blk]
  intro a
  match a with
  | ⟨0, _⟩ => show win1_15.index t (0 : Fin 2) * 5000 ≤ (i 0).val ∧ (i 0).val < win1_15.index t (0 : Fin 2) * 5000 + 5000; rw [e.2.2.2.2.2.2.2.2.2.2.2.2.2.2.2.2.2.2.2.2.2.2.2.2.2.2.2.2.2.2.1]; show (i 0).val / 5000 * 5000 ≤ (i 0).val ∧ (i 0).val < (i 0).val / 5000 * 5000 + 5000; omega
  | ⟨1, _⟩ => show win1_15.index t (1 : Fin 2) * 13 ≤ (i 1).val ∧ (i 1).val < win1_15.index t (1 : Fin 2) * 13 + 13; rw [e.2.2.2.2.2.2.2.2.2.2.2.2.2.2.2.2.2.2.2.2.2.2.2.2.2.2.2.2.2.2.2]; omega

include h0 h1 h2 h3 in
/-- Window 15's array after the region. -/
theorem attn_final (c : Dev nD) : (dat1 V c).arrAt 15 cfg1.N = attnArr V W c :=
  (dat1 V c).arrAt_eq_of_cover 15 (attnArr V W c) (fun t _ => attn_flushed V W h0 h1 h2 h3 c t) (attn_cover)

end Cert.KernelIdeal.Hand

end
-- ==== Proof.Between.lean ====
/-
  What the arrays hold where each region is entered, and between the regions.

  Region 0 is entered after the root encoder's host operations: its seven input arrays are four arguments as
  launched and three bias vectors reshaped to one row. It leaves the node pass's result array at `nodeArr` and every
  other buffer as entered. Region 1 is entered after the pooling, the one-hot encoding, the four row slices of the
  first head weight and four more reshaped biases: each of its fourteen input arrays is read here as the host
  operations' term of the launch memory and of the node pass's result — the same operations, in the same order, as
  the reference's stages of those names.
-/
import proofs.«108183_j29016799052510_1_alg».proof.Proof.Gen.KernelIdeal.Frame
import proofs.«108183_j29016799052510_1_alg».proof.Proof.Gen.ReferenceIdeal.Read
import proofs.«108183_j29016799052510_1_alg».proof.Proof.NodeArr
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## Region 0's entry: four arguments as launched, three biases as one row -/

theorem V3_arg0 (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  after_results_simp <;> rfl

theorem V3_arg7 (c : Dev nD) : V3 m ρ c main_arg7 = m ((c : Thread nD τ).loc main_arg7) := by
  show StableHlo.after hostOps0_2 (StableHlo.after hostOps0_1 (StableHlo.after hostOps0 (W0 m ρ c))) (Proc.devRef .tc main_arg7) = _
  after_results_simp <;> rfl

theorem V3_arg9 (c : Dev nD) : V3 m ρ c main_arg9 = m ((c : Thread nD τ).loc main_arg9) := by
  show StableHlo.after hostOps0_2 (StableHlo.after hostOps0_1 (StableHlo.after hostOps0 (W0 m ρ c))) (Proc.devRef .tc main_arg9) = _
  after_results_simp <;> rfl

theorem V3_arg11 (c : Dev nD) : V3 m ρ c main_arg11 = m ((c : Thread nD τ).loc main_arg11) := by
  show StableHlo.after hostOps0_2 (StableHlo.after hostOps0_1 (StableHlo.after hostOps0 (W0 m ρ c))) (Proc.devRef .tc main_arg11) = _
  after_results_simp <;> rfl

theorem V3_v12 (c : Dev nD) : V3 m ρ c main_v12 = shapeCast S1x128 (m ((c : Thread nD τ).loc main_arg8)) shapeCasts_S128_S1x128 := by
  show StableHlo.after hostOps0_2 (StableHlo.after hostOps0_1 (StableHlo.after hostOps0 (W0 m ρ c))) (Proc.devRef .tc main_v12) = _
  after_results_simp <;> rfl

theorem V3_v13 (c : Dev nD) : V3 m ρ c main_v13 = shapeCast S1x128 (m ((c : Thread nD τ).loc main_arg10)) shapeCasts_S128_S1x128 := by
  show StableHlo.after hostOps0_2 (StableHlo.after hostOps0_1 (StableHlo.after hostOps0 (W0 m ρ c))) (Proc.devRef .tc main_v13) = _
  after_results_simp <;> rfl

theorem V3_v14 (c : Dev nD) : V3 m ρ c main_v14 = shapeCast S1x128 (m ((c : Thread nD τ).loc main_arg12)) shapeCasts_S128_S1x128 := by
  show StableHlo.after hostOps0_2 (StableHlo.after hostOps0_1 (StableHlo.after hostOps0 (W0 m ρ c))) (Proc.devRef .tc main_v14) = _
  after_results_simp <;> rfl

/-! ## Region 0's exit: its result array, and the buffers it does not own -/

/-- The node pass's result array at region 0's exit. -/
theorem W4_v15 (c : Dev nD) : W4 m ρ c (Proc.devRef .tc main_v15) = nodeArr (V3 m ρ) c :=
  (W4_arr m ρ c 7).trans (node_final (V3 m ρ) c)

theorem W4_arg1 (c : Dev nD) : W4 m ρ c (Proc.devRef .tc main_arg1) = m ((c : Thread nD τ).loc main_arg1) := by
  refine (W4_of_ne m ρ c main_arg1 (by decide)).trans ?_
  show StableHlo.after hostOps0_2 (StableHlo.after hostOps0_1 (StableHlo.after hostOps0 (W0 m ρ c))) (Proc.devRef .tc main_arg1) = _
  after_results_simp <;> rfl

theorem W4_arg4 (c : Dev nD) : W4 m ρ c (Proc.devRef .tc main_arg4) = m ((c : Thread nD τ).loc main_arg4) := by
  refine (W4_of_ne m ρ c main_arg4 (by decide)).trans ?_
  show StableHlo.after hostOps0_2 (StableHlo.after hostOps0_1 (StableHlo.after hostOps0 (W0 m ρ c))) (Proc.devRef .tc main_arg4) = _
  after_results_simp <;> rfl

theorem W4_arg13 (c : Dev nD) : W4 m ρ c (Proc.devRef .tc main_arg13) = m ((c : Thread nD τ).loc main_arg13) := by
  refine (W4_of_ne m ρ c main_arg13 (by decide)).trans ?_
  show StableHlo.after hostOps0_2 (StableHlo.after hostOps0_1 (StableHlo.after hostOps0 (W0 m ρ c))) (Proc.devRef .tc main_arg13) = _
  after_results_simp <;> rfl

theorem W4_arg14 (c : Dev nD) : W4 m ρ c (Proc.devRef .tc main_arg14) = m ((c : Thread nD τ).loc main_arg14) := by
  refine (W4_of_ne m ρ c main_arg14 (by decide)).trans ?_
  show StableHlo.after hostOps0_2 (StableHlo.after hostOps0_1 (StableHlo.after hostOps0 (W0 m ρ c))) (Proc.devRef .tc main_arg14) = _
  after_results_simp <;> rfl

theorem W4_arg15 (c : Dev nD) : W4 m ρ c (Proc.devRef .tc main_arg15) = m ((c : Thread nD τ).loc main_arg15) := by
  refine (W4_of_ne m ρ c main_arg15 (by decide)).trans ?_
  show StableHlo.after hostOps0_2 (StableHlo.after hostOps0_1 (StableHlo.after hostOps0 (W0 m ρ c))) (Proc.devRef .tc main_arg15) = _
  after_results_simp <;> rfl

theorem W4_arg16 (c : Dev nD) : W4 m ρ c (Proc.devRef .tc main_arg16) = m ((c : Thread nD τ).loc main_arg16) := by
  refine (W4_of_ne m ρ c main_arg16 (by decide)).trans ?_
  show StableHlo.after hostOps0_2 (StableHlo.after hostOps0_1 (StableHlo.after hostOps0 (W0 m ρ c))) (Proc.devRef .tc main_arg16) = _
  after_results_simp <;> rfl

theorem W4_arg17 (c : Dev nD) : W4 m ρ c (Proc.devRef .tc main_arg17) = m ((c : Thread nD τ).loc main_arg17) := by
  refine (W4_of_ne m ρ c main_arg17 (by decide)).trans ?_
  show StableHlo.after hostOps0_2 (StableHlo.after hostOps0_1 (StableHlo.after hostOps0 (W0 m ρ c))) (Proc.devRef .tc main_arg17) = _
  after_results_simp <;> rfl

theorem W4_arg18 (c : Dev nD) : W4 m ρ c (Proc.devRef .tc main_arg18) = m ((c : Thread nD τ).loc main_arg18) := by
  refine (W4_of_ne m ρ c main_arg18 (by decide)).trans ?_
  show StableHlo.after hostOps0_2 (StableHlo.after hostOps0_1 (StableHlo.after hostOps0 (W0 m ρ c))) (Proc.devRef .tc main_arg18) = _
  after_results_simp <;> rfl

theorem W4_arg19 (c : Dev nD) : W4 m ρ c (Proc.devRef .tc main_arg19) = m ((c : Thread nD τ).loc main_arg19) := by
  refine (W4_of_ne m ρ c main_arg19 (by decide)).trans ?_
  show StableHlo.after hostOps0_2 (StableHlo.after hostOps0_1 (StableHlo.after hostOps0 (W0 m ρ c))) (Proc.devRef .tc main_arg19) = _
  after_results_simp <;> rfl

theorem W4_arg20 (c : Dev nD) : W4 m ρ c (Proc.devRef .tc main_arg20) = m ((c : Thread nD τ).loc main_arg20) := by
  refine (W4_of_ne m ρ c main_arg20 (by decide)).trans ?_
  show StableHlo.after hostOps0_2 (StableHlo.after hostOps0_1 (StableHlo.after hostOps0 (W0 m ρ c))) (Proc.devRef .tc main_arg20) = _
  after_results_simp <;> rfl

/-- The gathered root rows were computed before region 0 and pass through it: the reference's stage of that name. -/
theorem W4_v11 (c : Dev nD) : W4 m ρ c (Proc.devRef .tc main_v11)
    = Cert.ReferenceIdeal.Read.val_main_v11 (F := Ideal) (m ((c : Thread nD τ).loc main_arg2)) (m ((c : Thread nD τ).loc main_arg3)) (m ((c : Thread nD τ).loc main_arg5)) (m ((c : Thread nD τ).loc main_arg6)) := by
  refine (W4_of_ne m ρ c main_v11 (by decide)).trans ?_
  show StableHlo.after hostOps0_2 (StableHlo.after hostOps0_1 (StableHlo.after hostOps0 (W0 m ρ c))) (Proc.devRef .tc main_v11) = _
  after_results_simp <;> rfl

/-! ## Region 1's entry -/

theorem V8_v11 (c : Dev nD) : V8 m ρ c main_v11
    = Cert.ReferenceIdeal.Read.val_main_v11 (F := Ideal) (m ((c : Thread nD τ).loc main_arg2)) (m ((c : Thread nD τ).loc main_arg3)) (m ((c : Thread nD τ).loc main_arg5)) (m ((c : Thread nD τ).loc main_arg6)) := by
  show StableHlo.after hostOps1_3 (StableHlo.after hostOps1_2 (StableHlo.after hostOps1_1 (StableHlo.after hostOps1 (W4 m ρ c)))) (Proc.devRef .tc main_v11) = _
  after_results_simp
  exact W4_v11 m ρ c

/-- The pooled rows, given the node pass's result widened to f32 as the reference's node stage (`hnode`). -/
theorem V8_v28 (c : Dev nD)
    (hnode : (extf .f32 (nodeArr (V3 m ρ) c : FVec Ideal S800000x128 .bf16) bitsLt_bf16_f32 : FVec Ideal S800000x128 .f32)
      = Cert.ReferenceIdeal.Read.val_main_v25 (F := Ideal) (m ((c : Thread nD τ).loc main_arg0)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) :
    V8 m ρ c main_v28
      = Cert.ReferenceIdeal.Read.val_main_v37 (F := Ideal) (m ((c : Thread nD τ).loc main_arg0)) (m ((c : Thread nD τ).loc main_arg1)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps1_3 (StableHlo.after hostOps1_2 (StableHlo.after hostOps1_1 (StableHlo.after hostOps1 (W4 m ρ c)))) (Proc.devRef .tc main_v28) = _
  after_results_simp
  rw [W4_v15, W4_arg1, hnode]
  rfl

/-- The one-hot rows: the reference's stage of that name. -/
theorem V8_v30 (c : Dev nD) : V8 m ρ c main_v30 = Cert.ReferenceIdeal.Read.val_main_v39 (F := Ideal) (m ((c : Thread nD τ).loc main_arg4)) := by
  show StableHlo.after hostOps1_3 (StableHlo.after hostOps1_2 (StableHlo.after hostOps1_1 (StableHlo.after hostOps1 (W4 m ρ c)))) (Proc.devRef .tc main_v30) = _
  after_results_simp
  rw [W4_arg4]
  rfl

theorem V8_v31 (c : Dev nD) : V8 m ρ c main_v31 = extractStridedSlice S128x128 ![0, 0] (m ((c : Thread nD τ).loc main_arg13)) slices_S397x128_S128x128_0_0 := by
  show StableHlo.after hostOps1_3 (StableHlo.after hostOps1_2 (StableHlo.after hostOps1_1 (StableHlo.after hostOps1 (W4 m ρ c)))) (Proc.devRef .tc main_v31) = _
  after_results_simp
  rw [W4_arg13]

theorem V8_v32 (c : Dev nD) : V8 m ρ c main_v32 = extractStridedSlice S128x128 ![128, 0] (m ((c : Thread nD τ).loc main_arg13)) slices_S397x128_S128x128_128_0 := by
  show StableHlo.after hostOps1_3 (StableHlo.after hostOps1_2 (StableHlo.after hostOps1_1 (StableHlo.after hostOps1 (W4 m ρ c)))) (Proc.devRef .tc main_v32) = _
  after_results_simp
  rw [W4_arg13]

theorem V8_v33 (c : Dev nD) : V8 m ρ c main_v33 = extractStridedSlice S128x128 ![256, 0] (m ((c : Thread nD τ).loc main_arg13)) slices_S397x128_S128x128_256_0 := by
  show StableHlo.after hostOps1_3 (StableHlo.after hostOps1_2 (StableHlo.after hostOps1_1 (StableHlo.after hostOps1 (W4 m ρ c)))) (Proc.devRef .tc main_v33) = _
  after_results_simp
  rw [W4_arg13]

theorem V8_v34 (c : Dev nD) : V8 m ρ c main_v34 = extractStridedSlice S13x128 ![384, 0] (m ((c : Thread nD τ).loc main_arg13)) slices_S397x128_S13x128_384_0 := by
  show StableHlo.after hostOps1_3 (StableHlo.after hostOps1_2 (StableHlo.after hostOps1_1 (StableHlo.after hostOps1 (W4 m ρ c)))) (Proc.devRef .tc main_v34) = _
  after_results_simp
  rw [W4_arg13]

theorem V8_v35 (c : Dev nD) : V8 m ρ c main_v35 = shapeCast S1x128 (m ((c : Thread nD τ).loc main_arg14)) shapeCasts_S128_S1x128 := by
  show StableHlo.after hostOps1_3 (StableHlo.after hostOps1_2 (StableHlo.after hostOps1_1 (StableHlo.after hostOps1 (W4 m ρ c)))) (Proc.devRef .tc main_v35) = _
  after_results_simp
  rw [W4_arg14]
  rfl

theorem V8_v36 (c : Dev nD) : V8 m ρ c main_v36 = shapeCast S1x128 (m ((c : Thread nD τ).loc main_arg16)) shapeCasts_S128_S1x128 := by
  show StableHlo.after hostOps1_3 (StableHlo.after hostOps1_2 (StableHlo.after hostOps1_1 (StableHlo.after hostOps1 (W4 m ρ c)))) (Proc.devRef .tc main_v36) = _
  after_results_simp
  rw [W4_arg16]
  rfl

theorem V8_v37 (c : Dev nD) : V8 m ρ c main_v37 = shapeCast S1x13 (m ((c : Thread nD τ).loc main_arg18)) shapeCasts_S13_S1x13 := by
  show StableHlo.after hostOps1_3 (StableHlo.after hostOps1_2 (StableHlo.after hostOps1_1 (StableHlo.after hostOps1 (W4 m ρ c)))) (Proc.devRef .tc main_v37) = _
  after_results_simp
  rw [W4_arg18]
  rfl

theorem V8_v38 (c : Dev nD) : V8 m ρ c main_v38 = shapeCast S1x13 (m ((c : Thread nD τ).loc main_arg20)) shapeCasts_S13_S1x13 := by
  show StableHlo.after hostOps1_3 (StableHlo.after hostOps1_2 (StableHlo.after hostOps1_1 (StableHlo.after hostOps1 (W4 m ρ c)))) (Proc.devRef .tc main_v38) = _
  after_results_simp
  rw [W4_arg20]
  rfl

theorem V8_arg15 (c : Dev nD) : V8 m ρ c main_arg15 = m ((c : Thread nD τ).loc main_arg15) := by
  show StableHlo.after hostOps1_3 (StableHlo.after hostOps1_2 (StableHlo.after hostOps1_1 (StableHlo.after hostOps1 (W4 m ρ c)))) (Proc.devRef .tc main_arg15) = _
  after_results_simp
  exact W4_arg15 m ρ c

theorem V8_arg17 (c : Dev nD) : V8 m ρ c main_arg17 = m ((c : Thread nD τ).loc main_arg17) := by
  show StableHlo.after hostOps1_3 (StableHlo.after hostOps1_2 (StableHlo.after hostOps1_1 (StableHlo.after hostOps1 (W4 m ρ c)))) (Proc.devRef .tc main_arg17) = _
  after_results_simp
  exact W4_arg17 m ρ c

theorem V8_arg19 (c : Dev nD) : V8 m ρ c main_arg19 = m ((c : Thread nD τ).loc main_arg19) := by
  show StableHlo.after hostOps1_3 (StableHlo.after hostOps1_2 (StableHlo.after hostOps1_1 (StableHlo.after hostOps1 (W4 m ρ c)))) (Proc.devRef .tc main_arg19) = _
  after_results_simp
  exact W4_arg19 m ρ c

end Cert.KernelIdeal.Hand

end
-- ==== Proof.RefRows.lean ====
/-
  The reference program's three row-indexed results, read at one entry.

  The reference computes every array whose leading axis counts nodes or fragments row by row. Read at the entry
  (r, j), each stage is a function of row r of its row-indexed operands and of whole weight matrices and bias
  vectors:

    * a matrix product at (r, j) is the sum over k of the left operand at (r, k) times the weight at (k, j);
    * a bias vector, made one row and then repeated along the rows, reads its entry j at (r, j);
    * a rectifier is the maximum with a repeated zero;
    * the four blocks laid side by side along the columns read, at column k of the joined array, the block whose
      column range holds k, at k less the widths of the blocks before it;
    * one over one plus the exponential of the negation is the logistic function.

  Composing these gives the node pass, the first result and the second result at an entry as the row functions
  of Cert.Rows. Nothing here needs an entry to be finite: every step is an equation on the extended reals.
-/
import proofs.«108183_j29016799052510_1_alg».proof.Proof.Gen.ReferenceIdeal.Read
import proofs.«108183_j29016799052510_1_alg».proof.Proof.Rows

noncomputable section

open scoped BigOperators

namespace Cert.ReferenceIdeal.RefRows

open Idealize.ShloMosaic Idealize.ShloMosaic.ValueIdx
open Cert.ReferenceIdeal Idealize.ShloMosaic.TcCoe Idealize.SL.Sem Idealize.ShloMosaic.StableHlo

/-- Two rank-2 indices with equal coordinates are equal: split on the axis. -/
local macro "idx2" : tactic => `(tactic| (funext ax; match ax with | ⟨0, _⟩ => rfl | ⟨1, _⟩ => rfl))
/-- The same for rank 1. -/
local macro "idx1" : tactic => `(tactic| (funext ax; match ax with | ⟨0, _⟩ => rfl))

variable (x0 : (⟨S800000x86, .f32⟩ : BufTy).Contents (Elt Ideal)) (x1 : (⟨S800000, .i32⟩ : BufTy).Contents (Elt Ideal)) (x2 : (⟨S2000x86, .f32⟩ : BufTy).Contents (Elt Ideal))
  (x3 x4 : (⟨S100000, .i32⟩ : BufTy).Contents (Elt Ideal)) (x5 : (⟨S86x128, .f32⟩ : BufTy).Contents (Elt Ideal)) (x6 : (⟨S128, .f32⟩ : BufTy).Contents (Elt Ideal))
  (x7 : (⟨S86x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal))
  (x11 : (⟨S128x128, .f32⟩ : BufTy).Contents (Elt Ideal)) (x12 : (⟨S128, .f32⟩ : BufTy).Contents (Elt Ideal)) (x13 : (⟨S397x128, .f32⟩ : BufTy).Contents (Elt Ideal)) (x14 : (⟨S128, .f32⟩ : BufTy).Contents (Elt Ideal))
  (x15 : (⟨S128x128, .f32⟩ : BufTy).Contents (Elt Ideal)) (x16 : (⟨S128, .f32⟩ : BufTy).Contents (Elt Ideal)) (x17 : (⟨S128x13, .f32⟩ : BufTy).Contents (Elt Ideal)) (x18 : (⟨S13, .f32⟩ : BufTy).Contents (Elt Ideal))
  (x19 : (⟨S128x13, .f32⟩ : BufTy).Contents (Elt Ideal)) (x20 : (⟨S13, .f32⟩ : BufTy).Contents (Elt Ideal))

/-! ## The node pass: three affine layers, the last two rectified -/

/-- The bias vector, made one row and repeated along the 800000 rows, reads its entry j at (r, j). -/
theorem bias14 (r : Fin 800000) (j : Fin 128) : Read.val_main_v14 (F := Ideal) x8 (ix2 r j) = x8 (ix1 j) := by
  rw [Read.val_main_v14_apply, Read.val_main_v13_apply]
  exact congrArg x8 (by idx1)

/-- The bias vector, made one row and repeated along the 800000 rows, reads its entry j at (r, j). -/
theorem bias18 (r : Fin 800000) (j : Fin 128) : Read.val_main_v18 (F := Ideal) x10 (ix2 r j) = x10 (ix1 j) := by
  rw [Read.val_main_v18_apply, Read.val_main_v17_apply]
  exact congrArg x10 (by idx1)

/-- The bias vector, made one row and repeated along the 800000 rows, reads its entry j at (r, j). -/
theorem bias23 (r : Fin 800000) (j : Fin 128) : Read.val_main_v23 (F := Ideal) x12 (ix2 r j) = x12 (ix1 j) := by
  rw [Read.val_main_v23_apply, Read.val_main_v22_apply]
  exact congrArg x12 (by idx1)

/-- The repeated zero reads the float zero everywhere. -/
theorem zero1 (i : S800000x128.Idx) : Read.val_main_call1_v0 (F := Ideal) i = Ideal.ofBits .f32 0x00000000#32 := by
  rw [Read.val_main_call1_v0_apply, Read.val_main_call1_cst_apply]
  rfl

/-- The repeated zero reads the float zero everywhere. -/
theorem zero2 (i : S800000x128.Idx) : Read.val_main_call2_v0 (F := Ideal) i = Ideal.ofBits .f32 0x00000000#32 := by
  rw [Read.val_main_call2_v0_apply, Read.val_main_call2_cst_apply]
  rfl

/-- The input layer's product at (r, j). -/
theorem dot12 (r : Fin 800000) (j : Fin 128) :
    Read.val_main_v12 (F := Ideal) x0 x7 (ix2 r j) = ∑ k : Fin 86, x0 (ix2 r k) * x7 (ix2 k j) := by
  rw [Read.val_main_v12_apply]
  refine Finset.sum_congr rfl fun k _ => ?_
  rw [show Read.lidx_main_v12 (ix2 r j) k = ix2 r k from by idx2, show Read.ridx_main_v12 (ix2 r j) k = ix2 k j from by idx2]

/-- The second layer's product at (r, j). -/
theorem dot16 (r : Fin 800000) (j : Fin 128) :
    Read.val_main_v16 (F := Ideal) x0 x7 x8 x9 (ix2 r j) = ∑ k : Fin 128, Read.val_main_v15 (F := Ideal) x0 x7 x8 (ix2 r k) * x9 (ix2 k j) := by
  rw [Read.val_main_v16_apply]
  refine Finset.sum_congr rfl fun k _ => ?_
  rw [show Read.lidx_main_v16 (ix2 r j) k = ix2 r k from by idx2, show Read.ridx_main_v16 (ix2 r j) k = ix2 k j from by idx2]

/-- The third layer's product at (r, j). -/
theorem dot21 (r : Fin 800000) (j : Fin 128) :
    Read.val_main_v21 (F := Ideal) x0 x7 x8 x9 x10 x11 (ix2 r j) = ∑ k : Fin 128, Read.val_main_v20 (F := Ideal) x0 x7 x8 x9 x10 (ix2 r k) * x11 (ix2 k j) := by
  rw [Read.val_main_v21_apply]
  refine Finset.sum_congr rfl fun k _ => ?_
  rw [show Read.lidx_main_v21 (ix2 r j) k = ix2 r k from by idx2, show Read.ridx_main_v21 (ix2 r j) k = ix2 k j from by idx2]

/-- The input layer at (r, j): the affine map of row r of the node features. -/
theorem v15_at (r : Fin 800000) (j : Fin 128) :
    Read.val_main_v15 (F := Ideal) x0 x7 x8 (ix2 r j) = Rows.affine (fun a => x0 (ix2 r a)) (fun a i => x7 (ix2 a i)) (fun i => x8 (ix1 i)) j := by
  rw [Read.val_main_v15_apply, dot12, bias14]
  rfl

/-- The second layer before its rectifier at (r, j). -/
theorem v19_at (r : Fin 800000) (j : Fin 128) :
    Read.val_main_v19 (F := Ideal) x0 x7 x8 x9 x10 (ix2 r j) = Rows.affine (Rows.affine (fun a => x0 (ix2 r a)) (fun a i => x7 (ix2 a i)) (fun i => x8 (ix1 i))) (fun a i => x9 (ix2 a i)) (fun i => x10 (ix1 i)) j := by
  rw [Read.val_main_v19_apply, dot16, bias18]
  simp only [v15_at]
  rfl

/-- The second layer at (r, j). -/
theorem v20_at (r : Fin 800000) (j : Fin 128) :
    Read.val_main_v20 (F := Ideal) x0 x7 x8 x9 x10 (ix2 r j) = Rows.relu (Rows.affine (Rows.affine (fun a => x0 (ix2 r a)) (fun a i => x7 (ix2 a i)) (fun i => x8 (ix1 i))) (fun a i => x9 (ix2 a i)) (fun i => x10 (ix1 i)) j) := by
  rw [Read.val_main_v20_apply, zero1, v19_at]
  rfl

/-- The third layer before its rectifier at (r, j). -/
theorem v24_at (r : Fin 800000) (j : Fin 128) :
    Read.val_main_v24 (F := Ideal) x0 x7 x8 x9 x10 x11 x12 (ix2 r j) = Rows.affine (fun k => Rows.relu (Rows.affine (Rows.affine (fun a => x0 (ix2 r a)) (fun a i => x7 (ix2 a i)) (fun i => x8 (ix1 i))) (fun a i => x9 (ix2 a i)) (fun i => x10 (ix1 i)) k)) (fun a i => x11 (ix2 a i)) (fun i => x12 (ix1 i)) j := by
  rw [Read.val_main_v24_apply, dot21, bias23]
  simp only [v20_at]
  rfl

/-- **The node pass at an entry** is the node row function of row r of the node features. -/
theorem node_at (r : Fin 800000) (j : Fin 128) :
    Read.val_main_v25 (F := Ideal) x0 x7 x8 x9 x10 x11 x12 (ix2 r j)
      = Rows.nodeRow (fun a => x0 (ix2 r a)) (fun a i => x7 (ix2 a i)) (fun i => x8 (ix1 i)) (fun a i => x9 (ix2 a i)) (fun i => x10 (ix1 i)) (fun a i => x11 (ix2 a i)) (fun i => x12 (ix1 i)) j := by
  rw [Read.val_main_v25_apply, zero2, v24_at]
  rfl

/-! ## Four blocks side by side, read at a column of each block's range -/

section Cat
variable {α : Type} (h : Shape.Concatenates [S100000x128, S100000x128, S100000x128, S100000x13] S100000x397 1)
  (e d a : S100000x128.Idx → α) (o : S100000x13.Idx → α)

/-- Columns [0, 128) of the joined array are the first block. -/
theorem cat_seg0 (r : Fin 100000) (c : Fin 128) :
    concatenate S100000x397 1 [⟨S100000x128, e⟩, ⟨S100000x128, d⟩, ⟨S100000x128, a⟩, ⟨S100000x13, o⟩] h (ix2 r (Rows.seg0 c)) = e (ix2 r c) := by
  refine concatenate_apply_piece (t := S100000x397) 1 [⟨S100000x128, e⟩, ⟨S100000x128, d⟩, ⟨S100000x128, a⟩, ⟨S100000x13, o⟩] h _ 0 (by show (0 : Nat) < 4; decide) S100000x128 e rfl rfl 0 rfl (ix2 r c) (fun b hb => ?_) ?_
  · match b with
    | ⟨0, _⟩ => rfl
    | ⟨1, _⟩ => exact absurd rfl hb
  · exact Nat.zero_add _

/-- Columns [128, 256) are the second block, 128 columns in. -/
theorem cat_seg1 (r : Fin 100000) (c : Fin 128) :
    concatenate S100000x397 1 [⟨S100000x128, e⟩, ⟨S100000x128, d⟩, ⟨S100000x128, a⟩, ⟨S100000x13, o⟩] h (ix2 r (Rows.seg1 c)) = d (ix2 r c) := by
  refine concatenate_apply_piece (t := S100000x397) 1 [⟨S100000x128, e⟩, ⟨S100000x128, d⟩, ⟨S100000x128, a⟩, ⟨S100000x13, o⟩] h _ 1 (by show (1 : Nat) < 4; decide) S100000x128 d rfl rfl 128 rfl (ix2 r c) (fun b hb => ?_) ?_
  · match b with
    | ⟨0, _⟩ => rfl
    | ⟨1, _⟩ => exact absurd rfl hb
  · exact rfl

/-- Columns [256, 384) are the third block, 256 columns in. -/
theorem cat_seg2 (r : Fin 100000) (c : Fin 128) :
    concatenate S100000x397 1 [⟨S100000x128, e⟩, ⟨S100000x128, d⟩, ⟨S100000x128, a⟩, ⟨S100000x13, o⟩] h (ix2 r (Rows.seg2 c)) = a (ix2 r c) := by
  refine concatenate_apply_piece (t := S100000x397) 1 [⟨S100000x128, e⟩, ⟨S100000x128, d⟩, ⟨S100000x128, a⟩, ⟨S100000x13, o⟩] h _ 2 (by show (2 : Nat) < 4; decide) S100000x128 a rfl rfl 256 rfl (ix2 r c) (fun b hb => ?_) ?_
  · match b with
    | ⟨0, _⟩ => rfl
    | ⟨1, _⟩ => exact absurd rfl hb
  · exact rfl

/-- Columns [384, 397) are the fourth block, 384 columns in. -/
theorem cat_seg3 (r : Fin 100000) (c : Fin 13) :
    concatenate S100000x397 1 [⟨S100000x128, e⟩, ⟨S100000x128, d⟩, ⟨S100000x128, a⟩, ⟨S100000x13, o⟩] h (ix2 r (Rows.seg3 c)) = o (ix2 r c) := by
  refine concatenate_apply_piece (t := S100000x397) 1 [⟨S100000x128, e⟩, ⟨S100000x128, d⟩, ⟨S100000x128, a⟩, ⟨S100000x13, o⟩] h _ 3 (by show (3 : Nat) < 4; decide) S100000x13 o rfl rfl 384 rfl (ix2 r c) (fun b hb => ?_) ?_
  · match b with
    | ⟨0, _⟩ => rfl
    | ⟨1, _⟩ => exact absurd rfl hb
  · exact rfl

end Cat

/-! ## The head: the joined row through two rectified layers, then the two output layers -/

/-- The joined array at a column of the first range: the root row. -/
theorem v41_seg0 (r : Fin 100000) (c : Fin 128) :
    Read.val_main_v41 (F := Ideal) x0 x1 x2 x3 x4 x5 x6 x7 x8 x9 x10 x11 x12 (ix2 r (Rows.seg0 c)) = Read.val_main_v11 (F := Ideal) x2 x3 x5 x6 (ix2 r c) :=
  cat_seg0 _ _ _ _ _ r c

/-- At a column of the second range: the root row less the pooled row. -/
theorem v41_seg1 (r : Fin 100000) (c : Fin 128) :
    Read.val_main_v41 (F := Ideal) x0 x1 x2 x3 x4 x5 x6 x7 x8 x9 x10 x11 x12 (ix2 r (Rows.seg1 c))
      = Read.val_main_v11 (F := Ideal) x2 x3 x5 x6 (ix2 r c) - Read.val_main_v37 (F := Ideal) x0 x1 x7 x8 x9 x10 x11 x12 (ix2 r c) :=
  cat_seg1 _ _ _ _ _ r c

/-- At a column of the third range: the pooled row. -/
theorem v41_seg2 (r : Fin 100000) (c : Fin 128) :
    Read.val_main_v41 (F := Ideal) x0 x1 x2 x3 x4 x5 x6 x7 x8 x9 x10 x11 x12 (ix2 r (Rows.seg2 c)) = Read.val_main_v37 (F := Ideal) x0 x1 x7 x8 x9 x10 x11 x12 (ix2 r c) :=
  cat_seg2 _ _ _ _ _ r c

/-- At a column of the fourth range: the one-hot row. -/
theorem v41_seg3 (r : Fin 100000) (c : Fin 13) :
    Read.val_main_v41 (F := Ideal) x0 x1 x2 x3 x4 x5 x6 x7 x8 x9 x10 x11 x12 (ix2 r (Rows.seg3 c)) = Read.val_main_v39 (F := Ideal) x4 (ix2 r c) :=
  cat_seg3 _ _ _ _ _ r c

/-- The bias vector, made one row and repeated along the 100000 rows, reads its entry j at (r, j). -/
theorem bias44 (r : Fin 100000) (j : Fin 128) : Read.val_main_v44 (F := Ideal) x14 (ix2 r j) = x14 (ix1 j) := by
  rw [Read.val_main_v44_apply, Read.val_main_v43_apply]
  exact congrArg x14 (by idx1)

/-- The bias vector, made one row and repeated along the 100000 rows, reads its entry j at (r, j). -/
theorem bias49 (r : Fin 100000) (j : Fin 128) : Read.val_main_v49 (F := Ideal) x16 (ix2 r j) = x16 (ix1 j) := by
  rw [Read.val_main_v49_apply, Read.val_main_v48_apply]
  exact congrArg x16 (by idx1)

/-- The bias vector, made one row and repeated along the 100000 rows, reads its entry j at (r, j). -/
theorem bias54 (r : Fin 100000) (j : Fin 13) : Read.val_main_v54 (F := Ideal) x18 (ix2 r j) = x18 (ix1 j) := by
  rw [Read.val_main_v54_apply, Read.val_main_v53_apply]
  exact congrArg x18 (by idx1)

/-- The bias vector, made one row and repeated along the 100000 rows, reads its entry j at (r, j). -/
theorem bias64 (r : Fin 100000) (j : Fin 13) : Read.val_main_v64 (F := Ideal) x20 (ix2 r j) = x20 (ix1 j) := by
  rw [Read.val_main_v64_apply, Read.val_main_v63_apply]
  exact congrArg x20 (by idx1)

/-- The repeated zero reads the float zero everywhere. -/
theorem zero5 (i : S100000x128.Idx) : Read.val_main_call5_v0 (F := Ideal) i = Ideal.ofBits .f32 0x00000000#32 := by
  rw [Read.val_main_call5_v0_apply, Read.val_main_call5_cst_apply]
  rfl

/-- The repeated zero reads the float zero everywhere. -/
theorem zero6 (i : S100000x128.Idx) : Read.val_main_call6_v0 (F := Ideal) i = Ideal.ofBits .f32 0x00000000#32 := by
  rw [Read.val_main_call6_v0_apply, Read.val_main_call6_cst_apply]
  rfl

/-- The first head layer's product at (r, j): a sum over the 397 joined columns. -/
theorem dot42 (r : Fin 100000) (j : Fin 128) :
    Read.val_main_v42 (F := Ideal) x0 x1 x2 x3 x4 x5 x6 x7 x8 x9 x10 x11 x12 x13 (ix2 r j) = ∑ k : Fin 397, Read.val_main_v41 (F := Ideal) x0 x1 x2 x3 x4 x5 x6 x7 x8 x9 x10 x11 x12 (ix2 r k) * x13 (ix2 k j) := by
  rw [Read.val_main_v42_apply]
  refine Finset.sum_congr rfl fun k _ => ?_
  rw [show Read.lidx_main_v42 (ix2 r j) k = ix2 r k from by idx2, show Read.ridx_main_v42 (ix2 r j) k = ix2 k j from by idx2]

/-- The second head layer's product at (r, j). -/
theorem dot47 (r : Fin 100000) (j : Fin 128) :
    Read.val_main_v47 (F := Ideal) x0 x1 x2 x3 x4 x5 x6 x7 x8 x9 x10 x11 x12 x13 x14 x15 (ix2 r j) = ∑ k : Fin 128, Read.val_main_v46 (F := Ideal) x0 x1 x2 x3 x4 x5 x6 x7 x8 x9 x10 x11 x12 x13 x14 (ix2 r k) * x15 (ix2 k j) := by
  rw [Read.val_main_v47_apply]
  refine Finset.sum_congr rfl fun k _ => ?_
  rw [show Read.lidx_main_v47 (ix2 r j) k = ix2 r k from by idx2, show Read.ridx_main_v47 (ix2 r j) k = ix2 k j from by idx2]

/-- The output layer's product at (r, q). -/
theorem dot52 (r : Fin 100000) (j : Fin 13) :
    Read.val_main_v52 (F := Ideal) x0 x1 x2 x3 x4 x5 x6 x7 x8 x9 x10 x11 x12 x13 x14 x15 x16 x17 (ix2 r j) = ∑ k : Fin 128, Read.val_main_v51 (F := Ideal) x0 x1 x2 x3 x4 x5 x6 x7 x8 x9 x10 x11 x12 x13 x14 x15 x16 (ix2 r k) * x17 (ix2 k j) := by
  rw [Read.val_main_v52_apply]
  refine Finset.sum_congr rfl fun k _ => ?_
  rw [show Read.lidx_main_v52 (ix2 r j) k = ix2 r k from by idx2, show Read.ridx_main_v52 (ix2 r j) k = ix2 k j from by idx2]

/-- The attention layer's product at (r, q). -/
theorem dot62 (r : Fin 100000) (j : Fin 13) :
    Read.val_main_v62 (F := Ideal) x0 x1 x2 x3 x4 x5 x6 x7 x8 x9 x10 x11 x12 x13 x14 x15 x16 x19 (ix2 r j) = ∑ k : Fin 128, Read.val_main_v51 (F := Ideal) x0 x1 x2 x3 x4 x5 x6 x7 x8 x9 x10 x11 x12 x13 x14 x15 x16 (ix2 r k) * x19 (ix2 k j) := by
  rw [Read.val_main_v62_apply]
  refine Finset.sum_congr rfl fun k _ => ?_
  rw [show Read.lidx_main_v62 (ix2 r j) k = ix2 r k from by idx2, show Read.ridx_main_v62 (ix2 r j) k = ix2 k j from by idx2]

/-- The first head layer at (r, j): the sum over the joined columns splits into the four ranges' sums. -/
theorem v46_at (r : Fin 100000) (j : Fin 128) :
    Read.val_main_v46 (F := Ideal) x0 x1 x2 x3 x4 x5 x6 x7 x8 x9 x10 x11 x12 x13 x14 (ix2 r j)
      = Rows.first (fun k => Read.val_main_v11 (F := Ideal) x2 x3 x5 x6 (ix2 r k)) (fun k => Read.val_main_v37 (F := Ideal) x0 x1 x7 x8 x9 x10 x11 x12 (ix2 r k)) (fun k => Read.val_main_v39 (F := Ideal) x4 (ix2 r k))
          (fun k j => x13 (ix2 k j)) (fun j => x14 (ix1 j)) j := by
  rw [Read.val_main_v46_apply, zero5, Read.val_main_v45_apply, dot42, bias44, Rows.sum_joined]
  simp only [v41_seg0, v41_seg1, v41_seg2, v41_seg3]
  rfl

/-- The second head layer before its rectifier at (r, j). -/
theorem v50_at (r : Fin 100000) (j : Fin 128) :
    Read.val_main_v50 (F := Ideal) x0 x1 x2 x3 x4 x5 x6 x7 x8 x9 x10 x11 x12 x13 x14 x15 x16 (ix2 r j)
      = Rows.affine (Rows.first (fun k => Read.val_main_v11 (F := Ideal) x2 x3 x5 x6 (ix2 r k)) (fun k => Read.val_main_v37 (F := Ideal) x0 x1 x7 x8 x9 x10 x11 x12 (ix2 r k)) (fun k => Read.val_main_v39 (F := Ideal) x4 (ix2 r k))
          (fun k j => x13 (ix2 k j)) (fun j => x14 (ix1 j))) (fun k j => x15 (ix2 k j)) (fun j => x16 (ix1 j)) j := by
  rw [Read.val_main_v50_apply, dot47, bias49]
  simp only [v46_at]
  rfl

/-- The hidden layer at (r, j). -/
theorem v51_at (r : Fin 100000) (j : Fin 128) :
    Read.val_main_v51 (F := Ideal) x0 x1 x2 x3 x4 x5 x6 x7 x8 x9 x10 x11 x12 x13 x14 x15 x16 (ix2 r j)
      = Rows.hidden (fun k => Read.val_main_v11 (F := Ideal) x2 x3 x5 x6 (ix2 r k)) (fun k => Read.val_main_v37 (F := Ideal) x0 x1 x7 x8 x9 x10 x11 x12 (ix2 r k)) (fun k => Read.val_main_v39 (F := Ideal) x4 (ix2 r k))
          (fun k j => x13 (ix2 k j)) (fun j => x14 (ix1 j)) (fun k j => x15 (ix2 k j)) (fun j => x16 (ix1 j)) j := by
  rw [Read.val_main_v51_apply, zero6, v50_at]
  rfl

/-- The float word of one is one. -/
theorem one_f32 : Ideal.ofBits .f32 0x3F800000#32 = 1 := IdealRules.sign_bit.ideal_onePat .f32

/-- The output layer before the logistic function at (r, q). -/
theorem v55_at (r : Fin 100000) (q : Fin 13) :
    Read.val_main_v55 (F := Ideal) x0 x1 x2 x3 x4 x5 x6 x7 x8 x9 x10 x11 x12 x13 x14 x15 x16 x17 x18 (ix2 r q)
      = Rows.affine (Rows.hidden (fun k => Read.val_main_v11 (F := Ideal) x2 x3 x5 x6 (ix2 r k)) (fun k => Read.val_main_v37 (F := Ideal) x0 x1 x7 x8 x9 x10 x11 x12 (ix2 r k)) (fun k => Read.val_main_v39 (F := Ideal) x4 (ix2 r k))
          (fun k j => x13 (ix2 k j)) (fun j => x14 (ix1 j)) (fun k j => x15 (ix2 k j)) (fun j => x16 (ix1 j))) (fun k q => x17 (ix2 k q)) (fun q => x18 (ix1 q)) q := by
  rw [Read.val_main_v55_apply, dot52, bias54]
  simp only [v51_at]
  rfl

/-- **The first result at an entry**: one over one plus the exponential of the negated output layer is its
    logistic function. -/
theorem out_at (r : Fin 100000) (q : Fin 13) :
    Read.val_main_v61 (F := Ideal) x0 x1 x2 x3 x4 x5 x6 x7 x8 x9 x10 x11 x12 x13 x14 x15 x16 x17 x18 (ix2 r q)
      = Rows.outRow (fun k => Read.val_main_v11 (F := Ideal) x2 x3 x5 x6 (ix2 r k)) (fun k => Read.val_main_v37 (F := Ideal) x0 x1 x7 x8 x9 x10 x11 x12 (ix2 r k)) (fun k => Read.val_main_v39 (F := Ideal) x4 (ix2 r k))
          (fun k j => x13 (ix2 k j)) (fun j => x14 (ix1 j)) (fun k j => x15 (ix2 k j)) (fun j => x16 (ix1 j))
          (fun k q => x17 (ix2 k q)) (fun q => x18 (ix1 q)) q := by
  rw [Read.val_main_v61_apply, Read.val_main_v60_apply, Read.val_main_cst_7_apply, Read.val_main_v59_apply,
    Read.val_main_v58_apply, Read.val_main_cst_6_apply, Read.val_main_v57_apply, Read.val_main_v56_apply, v55_at]
  show Ideal.div (Ideal.ofBits .f32 0x3F800000#32) (Ideal.ofBits .f32 0x3F800000#32 + Ideal.exp (-_)) = _
  rw [one_f32]
  rfl

/-- **The second result at an entry**: the attention layer of the hidden row, no activation. -/
theorem attn_at (r : Fin 100000) (q : Fin 13) :
    Read.val_main_v65 (F := Ideal) x0 x1 x2 x3 x4 x5 x6 x7 x8 x9 x10 x11 x12 x13 x14 x15 x16 x19 x20 (ix2 r q)
      = Rows.attnRow (fun k => Read.val_main_v11 (F := Ideal) x2 x3 x5 x6 (ix2 r k)) (fun k => Read.val_main_v37 (F := Ideal) x0 x1 x7 x8 x9 x10 x11 x12 (ix2 r k)) (fun k => Read.val_main_v39 (F := Ideal) x4 (ix2 r k))
          (fun k j => x13 (ix2 k j)) (fun j => x14 (ix1 j)) (fun k j => x15 (ix2 k j)) (fun j => x16 (ix1 j))
          (fun k q => x19 (ix2 k q)) (fun q => x20 (ix1 q)) q := by
  rw [Read.val_main_v65_apply, dot62, bias64]
  simp only [v51_at]
  rfl

end Cert.ReferenceIdeal.RefRows

end
-- ==== Proof.Join.lean ====
/-
  The idealized kernel's two results are the reference's two result stages of the same arguments.

  Row r of the kernel's first result is `Rows.outRow` of row r of the arrays region 1 is entered with (the head's
  array lemma); those arrays are the reference's stages of the launch memory (the between-regions lemmas), the pooled
  rows through the node pass's result, which is the reference's node stage row by row (`Rows.nodeRow` on both
  sides); and the reference's result stage reads `Rows.outRow` of the same rows at every entry. The same for the
  second result with `Rows.attnRow`. The biases enter the kernel reshaped to one row and the reference broadcast
  to one row: both read the vector's entry.
-/
import proofs.«108183_j29016799052510_1_alg».proof.Proof.RunOut
import proofs.«108183_j29016799052510_1_alg».proof.Proof.HeadArr
import proofs.«108183_j29016799052510_1_alg».proof.Proof.Between
import proofs.«108183_j29016799052510_1_alg».proof.Proof.RefRows
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

/-! ## The three array functions at an entry -/

section AtEntry
variable (V : (c : Dev nD) → (b : Ref sig .tc) → Buf (Elt Ideal) ((c : Thread nD τ).loc b)) (W : Dev nD → Fin 397 → Fin 128 → Ideal .f32)

theorem nodeArr_at (c : Dev nD) (r : Fin 800000) (j : Fin 128) : nodeArr V c (ix2 r j)
    = Cert.Rows.nodeRow (fun a => (V c main_arg0 : _ → Ideal .f32) (ix2 r a)) (fun a j => (V c main_arg7 : _ → Ideal .f32) (ix2 a j))
      (fun j => (V c main_v12 : _ → Ideal .f32) (ix2 (0 : Fin 1) j)) (fun a j => (V c main_arg9 : _ → Ideal .f32) (ix2 a j))
      (fun j => (V c main_v13 : _ → Ideal .f32) (ix2 (0 : Fin 1) j)) (fun a j => (V c main_arg11 : _ → Ideal .f32) (ix2 a j))
      (fun j => (V c main_v14 : _ → Ideal .f32) (ix2 (0 : Fin 1) j)) j := rfl

theorem outArr_at (c : Dev nD) (r : Fin 100000) (q : Fin 13) : outArr V W c (ix2 r q)
    = Cert.Rows.outRow (fun k => (V c main_v11 : _ → Ideal .f32) (ix2 r k)) (fun k => (V c main_v28 : _ → Ideal .f32) (ix2 r k))
      (fun k => (V c main_v30 : _ → Ideal .f32) (ix2 r k)) (W c) (fun j => (V c main_v35 : _ → Ideal .f32) (ix2 (0 : Fin 1) j))
      (fun k j => (V c main_arg15 : _ → Ideal .f32) (ix2 k j)) (fun j => (V c main_v36 : _ → Ideal .f32) (ix2 (0 : Fin 1) j))
      (fun k q => (V c main_arg17 : _ → Ideal .f32) (ix2 k q)) (fun q => (V c main_v37 : _ → Ideal .f32) (ix2 (0 : Fin 1) q)) q := rfl

theorem attnArr_at (c : Dev nD) (r : Fin 100000) (q : Fin 13) : attnArr V W c (ix2 r q)
    = Cert.Rows.attnRow (fun k => (V c main_v11 : _ → Ideal .f32) (ix2 r k)) (fun k => (V c main_v28 : _ → Ideal .f32) (ix2 r k))
      (fun k => (V c main_v30 : _ → Ideal .f32) (ix2 r k)) (W c) (fun j => (V c main_v35 : _ → Ideal .f32) (ix2 (0 : Fin 1) j))
      (fun k j => (V c main_arg15 : _ → Ideal .f32) (ix2 k j)) (fun j => (V c main_v36 : _ → Ideal .f32) (ix2 (0 : Fin 1) j))
      (fun k q => (V c main_arg19 : _ → Ideal .f32) (ix2 k q)) (fun q => (V c main_v38 : _ → Ideal .f32) (ix2 (0 : Fin 1) q)) q := rfl

end AtEntry

variable (m : (ℓ : Loc nD τ sig) → Buf (Elt Ideal) ℓ) (ρ : Dev nD → PrngReg)

/-- The node pass's result, widened to f32, is the reference's node stage of the launched arguments. -/
theorem node_ext (c : Dev nD) : (extf .f32 (nodeArr (V3 m ρ) c : FVec Ideal S800000x128 .bf16) bitsLt_bf16_f32 : FVec Ideal S800000x128 .f32)
    = Cert.ReferenceIdeal.Read.val_main_v25 (F := Ideal) (m ((c : Thread nD τ).loc main_arg0)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext i
  obtain ⟨r, j, rfl⟩ : ∃ (r : Fin 800000) (j : Fin 128), i = ix2 r j := ⟨i 0, i 1, eq_ix2 i⟩
  rw [extf_apply, nodeArr_at, Cert.ReferenceIdeal.RefRows.node_at, V3_arg0, V3_arg7, V3_v12, V3_arg9, V3_v13, V3_arg11, V3_v14]
  simp only [shapeCast_a_1a_apply]

/-- The first head weight as a function of its row and column. -/
def Wm (c : Dev nD) : Fin 397 → Fin 128 → Ideal .f32 := fun k j => ((m ((c : Thread nD τ).loc main_arg13)) : _ → Ideal .f32) (ix2 k j)

/-- Rows 0 … of the first head weight: the host slice read at an entry. -/
theorem slice_v31 (c : Dev nD) (k : Fin 128) (j : Fin 128) :
    (V8 m ρ c main_v31 : _ → Ideal .f32) (ix2 k j) = Wm m c (Cert.Rows.seg0 k) j := by
  rw [V8_v31]
  refine extractStridedSlice_apply _ _ _ (ix2 k j) (ix2 (Cert.Rows.seg0 k) j) fun a => ?_
  match a with
  | ⟨0, _⟩ => exact (Nat.zero_add _).symm
  | ⟨1, _⟩ => exact (Nat.zero_add _).symm

/-- Rows 128 … of the first head weight: the host slice read at an entry. -/
theorem slice_v32 (c : Dev nD) (k : Fin 128) (j : Fin 128) :
    (V8 m ρ c main_v32 : _ → Ideal .f32) (ix2 k j) = Wm m c (Cert.Rows.seg1 k) j := by
  rw [V8_v32]
  refine extractStridedSlice_apply _ _ _ (ix2 k j) (ix2 (Cert.Rows.seg1 k) j) fun a => ?_
  match a with
  | ⟨0, _⟩ => rfl
  | ⟨1, _⟩ => exact (Nat.zero_add _).symm

/-- Rows 256 … of the first head weight: the host slice read at an entry. -/
theorem slice_v33 (c : Dev nD) (k : Fin 128) (j : Fin 128) :
    (V8 m ρ c main_v33 : _ → Ideal .f32) (ix2 k j) = Wm m c (Cert.Rows.seg2 k) j := by
  rw [V8_v33]
  refine extractStridedSlice_apply _ _ _ (ix2 k j) (ix2 (Cert.Rows.seg2 k) j) fun a => ?_
  match a with
  | ⟨0, _⟩ => rfl
  | ⟨1, _⟩ => exact (Nat.zero_add _).symm

/-- Rows 384 … of the first head weight: the host slice read at an entry. -/
theorem slice_v34 (c : Dev nD) (k : Fin 13) (j : Fin 128) :
    (V8 m ρ c main_v34 : _ → Ideal .f32) (ix2 k j) = Wm m c (Cert.Rows.seg3 k) j := by
  rw [V8_v34]
  refine extractStridedSlice_apply _ _ _ (ix2 k j) (ix2 (Cert.Rows.seg3 k) j) fun a => ?_
  match a with
  | ⟨0, _⟩ => rfl
  | ⟨1, _⟩ => exact (Nat.zero_add _).symm

set_option maxHeartbeats 1000000 in
/-- The kernel's first result array is the reference's first result stage of the launched arguments. -/
theorem out_value (c : Dev nD) : W9 m ρ c (Proc.devRef .tc main_v39_0)
    = Cert.ReferenceIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  have h1 : W9 m ρ c (Proc.devRef .tc main_v39_0) = outArr (V8 m ρ) (Wm m) c :=
    (W9_arr m ρ c 14).trans (out_final (V8 m ρ) (Wm m) (slice_v31 m ρ) (slice_v32 m ρ) (slice_v33 m ρ) (slice_v34 m ρ) c)
  rw [h1]
  funext i
  obtain ⟨r, q, rfl⟩ : ∃ (r : Fin 100000) (q : Fin 13), i = ix2 r q := ⟨i 0, i 1, eq_ix2 i⟩
  rw [outArr_at, Cert.ReferenceIdeal.RefRows.out_at, V8_v11, V8_v28 m ρ c (node_ext m ρ c), V8_v30, V8_v35, V8_arg15, V8_v36, V8_arg17, V8_v37]
  simp only [shapeCast_a_1a_apply]
  rfl

set_option maxHeartbeats 1000000 in
/-- The kernel's second result array is the reference's second result stage of the launched arguments. -/
theorem attn_value (c : Dev nD) : W9 m ρ c (Proc.devRef .tc main_v39_1)
    = Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg19)) (m ((c : Thread nD τ).loc main_arg20)) := by
  have h1 : W9 m ρ c (Proc.devRef .tc main_v39_1) = attnArr (V8 m ρ) (Wm m) c :=
    (W9_arr m ρ c 15).trans (attn_final (V8 m ρ) (Wm m) (slice_v31 m ρ) (slice_v32 m ρ) (slice_v33 m ρ) (slice_v34 m ρ) c)
  rw [h1]
  funext i
  obtain ⟨r, q, rfl⟩ : ∃ (r : Fin 100000) (q : Fin 13), i = ix2 r q := ⟨i 0, i 1, eq_ix2 i⟩
  rw [attnArr_at, Cert.ReferenceIdeal.RefRows.attn_at, V8_v11, V8_v28 m ρ c (node_ext m ρ c), V8_v30, V8_v35, V8_arg15, V8_v36, V8_arg19, V8_v38]
  simp only [shapeCast_a_1a_apply]
  rfl

/-- The idealized kernel's run: every weakly fair execution terminates without a fault, the two results at the
    reference's result stages of the launched arguments, the arguments as launched. -/
theorem run : θ_run defs (onTc (τ := τ) (main (F := Ideal))) ⟨m, fun _ => 0, ρ⟩ (fun r => ∀ c : Dev nD,
      r.2.mem ((c.tc : Thread nD τ).loc main_v39_0) = Cert.ReferenceIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
      ∧ r.2.mem ((c.tc : Thread nD τ).loc main_v39_1) = Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg19)) (m ((c : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨(h c).1.trans (out_value m ρ c), (h c).2.1.trans (attn_value m ρ c), (h c).2.2⟩) (run_out m ρ)

end Cert.KernelIdeal.Hand

end
-- ==== Proof.lean ====
/-
  The proof of `Cert.Claim`: the three frames, the idealization's ledger (empty) and the algebraic claim.

  The program is a fragment-graph network head: a node pass (three dense layers over 800000 node rows, a Pallas
  kernel tiled 8000 rows at a time), a segment mean over fragments and a one-hot encoding (host operations), and an
  MLP head over 100000 fragment rows (a second kernel tiled 5000 rows at a time) whose first layer multiplies the
  root rows, their difference with the pooled rows, the pooled rows and the one-hot rows against four row ranges of
  one 397-row weight matrix, where the reference joins the four pieces side by side and multiplies once.

  At the ideal values both programs compute, row by row, the functions of `Proof/Rows.lean`: narrowing to bf16 is
  the identity, a matrix product into a zero accumulator and the host's dot_general are the same sum over the
  contracted coordinate, the sum over the 397 joined columns is the sum of the four ranges' sums (addition on the
  extended reals is commutative and associative: nothing has to be finite, and the precondition is not used), and
  the kernel's logistic is 1 / (1 + exp (-x)), which is how the reference spells it. The host operations between
  and around the kernels are the reference's own, applied to equal operands.

  Kernel side: `Proof/Tiles.lean` (a stored tile at an entry), `Proof/NodeArr.lean` and `Proof/HeadArr.lean` (each
  result array as one function of the arrays its region finds), `Proof/Between.lean` (those arrays as the host
  operations' terms of the launch memory), `Proof/RunOut.lean` (the run with the result arrays named).
  Reference side: `Proof/RefRows.lean` over the generated run and its read-at-an-index lemmas.
  `Proof/Join.lean` states the kernel's run with the reference's own result stages.
-/
import proofs.«108183_j29016799052510_1_alg».proof.Defs
import proofs.«108183_j29016799052510_1_alg».proof.Proof.Join
import proofs.«108183_j29016799052510_1_alg».proof.Proof.Gen.Kernel
import proofs.«108183_j29016799052510_1_alg».proof.Proof.Gen.Kernel.Frame
import proofs.«108183_j29016799052510_1_alg».proof.Proof.Gen.KernelIdeal
import proofs.«108183_j29016799052510_1_alg».proof.Proof.Gen.KernelIdeal.Frame
import proofs.«108183_j29016799052510_1_alg».proof.Proof.Gen.ReferenceIdeal
import proofs.«108183_j29016799052510_1_alg».proof.Proof.Gen.ReferenceIdeal.Run
import proofs.«108183_j29016799052510_1_alg».proof.Proof.Gen.ReferenceIdeal.Read
import proofs.«108183_j29016799052510_1_alg».proof.Proof.Gen.Pre_finite_inputs
import Idealize.ShloMosaic.Adequacy
import Idealize.ShloMosaic.Init

noncomputable section

namespace Cert.Proof

open Idealize.ShloMosaic Idealize.SL.Sem

/-- The word-level kernel's frame: generated whole. -/
theorem frame_k : Cert.frame_Kernel := fun m ρ _ => Cert.Kernel.Gen.frame m ρ

/-- The idealized kernel's frame: generated whole. -/
theorem frame_ki : Cert.frame_KernelIdeal := fun m ρ _ => Cert.KernelIdeal.Gen.frame m ρ

/-- The reference's frame: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- The reference's first result stage at equal arguments. -/
theorem out_congr : ∀ {a0 a1 a2 a3 a4 a5 a6 a7 a8 a9 a10 a11 a12 a13 a14 a15 a16 a17 a18 b0 b1 b2 b3 b4 b5 b6 b7 b8 b9 b10 b11 b12 b13 b14 b15 b16 b17 b18}, a0 = b0 → a1 = b1 → a2 = b2 → a3 = b3 → a4 = b4 → a5 = b5 → a6 = b6 → a7 = b7 → a8 = b8 → a9 = b9 → a10 = b10 → a11 = b11 → a12 = b12 → a13 = b13 → a14 = b14 → a15 = b15 → a16 = b16 → a17 = b17 → a18 = b18 →
    Cert.ReferenceIdeal.Read.val_main_v61 (F := Ideal) a0 a1 a2 a3 a4 a5 a6 a7 a8 a9 a10 a11 a12 a13 a14 a15 a16 a17 a18 = Cert.ReferenceIdeal.Read.val_main_v61 (F := Ideal) b0 b1 b2 b3 b4 b5 b6 b7 b8 b9 b10 b11 b12 b13 b14 b15 b16 b17 b18 := by
  intros
  subst_vars
  rfl

/-- The reference's second result stage at equal arguments. -/
theorem attn_congr : ∀ {a0 a1 a2 a3 a4 a5 a6 a7 a8 a9 a10 a11 a12 a13 a14 a15 a16 a19 a20 b0 b1 b2 b3 b4 b5 b6 b7 b8 b9 b10 b11 b12 b13 b14 b15 b16 b19 b20}, a0 = b0 → a1 = b1 → a2 = b2 → a3 = b3 → a4 = b4 → a5 = b5 → a6 = b6 → a7 = b7 → a8 = b8 → a9 = b9 → a10 = b10 → a11 = b11 → a12 = b12 → a13 = b13 → a14 = b14 → a15 = b15 → a16 = b16 → a19 = b19 → a20 = b20 →
    Cert.ReferenceIdeal.Read.val_main_v65 (F := Ideal) a0 a1 a2 a3 a4 a5 a6 a7 a8 a9 a10 a11 a12 a13 a14 a15 a16 a19 a20 = Cert.ReferenceIdeal.Read.val_main_v65 (F := Ideal) b0 b1 b2 b3 b4 b5 b6 b7 b8 b9 b10 b11 b12 b13 b14 b15 b16 b19 b20 := by
  intros
  subst_vars
  rfl

set_option maxHeartbeats 1000000 in
/-- From memories agreeing on the arguments both programs run, and each result of the kernel is the reference's
    result stage of the same arguments: the kernel's run states it of its own arguments, the reference's run of
    its own, and the arguments agree. -/
theorem algebraic : Cert.algebraic_KernelIdeal_ReferenceIdeal := by
  intro m ρ m' ρ' _ hagree
  refine ⟨fun c => Cert.ReferenceIdeal.Read.val_main_v61 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)),
    fun c => Cert.ReferenceIdeal.Read.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)),
    Cert.KernelIdeal.Hand.run m ρ, ?_⟩
  refine (θ_run Cert.ReferenceIdeal.defs _ _).mono (fun _ h c => ?_) (Cert.ReferenceIdeal.Value.run (F := Ideal) m' ρ')
  obtain ⟨e0, e1, e2, e3, e4, e5, e6, e7, e8, e9, e10, e11, e12, e13, e14, e15, e16, e17, e18, e19, e20⟩ := hagree c
  refine ⟨(h c).1.trans ?_, (h c).2.1.trans ?_, (h c).2.2⟩
  · exact (Cert.ReferenceIdeal.Read.val_main_v61_eq m' c).trans (out_congr e0 e1 e2 e3 e4 e5 e6 e7 e8 e9 e10 e11 e12 e13 e14 e15 e16 e17 e18)
  · exact (Cert.ReferenceIdeal.Read.val_main_v65_eq m' c).trans (attn_congr e0 e1 e2 e3 e4 e5 e6 e7 e8 e9 e10 e11 e12 e13 e14 e15 e16 e19 e20)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
